-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S4096x1024 : Shape := ⟨2, ![4096, 1024]⟩
abbrev S4096x3072 : Shape := ⟨2, ![4096, 3072]⟩
abbrev S512x1024 : Shape := ⟨2, ![512, 1024]⟩
abbrev S2x2048x3072 : Shape := ⟨3, ![2, 2048, 3072]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x1024, .bf16⟩
  | .hbm, ⟨4, _⟩ => ⟨S3072x1024, .bf16⟩
  | .hbm, ⟨5, _⟩ => ⟨S1024x1024, .bf16⟩
  | .hbm, ⟨6, _⟩ => ⟨S4096x1024, .bf16⟩
  | .hbm, ⟨7, _⟩ => ⟨S4096x3072, .bf16⟩
  | .hbm, ⟨8, _⟩ => ⟨S2x2048x3072, .bf16⟩
  | .hbm, ⟨9, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1024x1024, .bf16⟩
  | .local _ .vmem, ⟨13, _⟩ => ⟨S1x512x1024, .f32⟩
  | .local _ .vmem, ⟨14, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S4096x3072_S2x2048x3072 : S4096x3072.ShapeCasts S2x2048x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S512x1024_o0_0_S512x64 : S512x1024.Slices ![0, 0] S512x64
  slices_S2048x1024_o0_0_S2048x64 : S2048x1024.Slices ![0, 0] S2048x64
  reduces_S512x2048_S512 : S512x2048.Reduces [1] S512
  shapeCasts_S512_S512x1 : S512.ShapeCasts S512x1
  broadcasts_S512x1_S512x2048 : S512x1.Broadcasts S512x2048
  slices_S512x1024_o0_64_S512x64 : S512x1024.Slices ![0, 64] S512x64
  slices_S2048x1024_o0_64_S2048x64 : S2048x1024.Slices ![0, 64] S2048x64
  slices_S512x1024_o0_128_S512x64 : S512x1024.Slices ![0, 128] S512x64
  slices_S2048x1024_o0_128_S2048x64 : S2048x1024.Slices ![0, 128] S2048x64
  slices_S512x1024_o0_192_S512x64 : S512x1024.Slices ![0, 192] S512x64
  slices_S2048x1024_o0_192_S2048x64 : S2048x1024.Slices ![0, 192] S2048x64
  slices_S512x1024_o0_256_S512x64 : S512x1024.Slices ![0, 256] S512x64
  slices_S2048x1024_o0_256_S2048x64 : S2048x1024.Slices ![0, 256] S2048x64
  slices_S512x1024_o0_320_S512x64 : S512x1024.Slices ![0, 320] S512x64
  slices_S2048x1024_o0_320_S2048x64 : S2048x1024.Slices ![0, 320] S2048x64
  slices_S512x1024_o0_384_S512x64 : S512x1024.Slices ![0, 384] S512x64
  slices_S2048x1024_o0_384_S2048x64 : S2048x1024.Slices ![0, 384] S2048x64
  slices_S512x1024_o0_448_S512x64 : S512x1024.Slices ![0, 448] S512x64
  slices_S2048x1024_o0_448_S2048x64 : S2048x1024.Slices ![0, 448] S2048x64
  slices_S512x1024_o0_512_S512x64 : S512x1024.Slices ![0, 512] S512x64
  slices_S2048x1024_o0_512_S2048x64 : S2048x1024.Slices ![0, 512] S2048x64
  slices_S512x1024_o0_576_S512x64 : S512x1024.Slices ![0, 576] S512x64
  slices_S2048x1024_o0_576_S2048x64 : S2048x1024.Slices ![0, 576] S2048x64
  slices_S512x1024_o0_640_S512x64 : S512x1024.Slices ![0, 640] S512x64
  slices_S2048x1024_o0_640_S2048x64 : S2048x1024.Slices ![0, 640] S2048x64
  slices_S512x1024_o0_704_S512x64 : S512x1024.Slices ![0, 704] S512x64
  slices_S2048x1024_o0_704_S2048x64 : S2048x1024.Slices ![0, 704] S2048x64
  slices_S512x1024_o0_768_S512x64 : S512x1024.Slices ![0, 768] S512x64
  slices_S2048x1024_o0_768_S2048x64 : S2048x1024.Slices ![0, 768] S2048x64
  slices_S512x1024_o0_832_S512x64 : S512x1024.Slices ![0, 832] S512x64
  slices_S2048x1024_o0_832_S2048x64 : S2048x1024.Slices ![0, 832] S2048x64
  slices_S512x1024_o0_896_S512x64 : S512x1024.Slices ![0, 896] S512x64
  slices_S2048x1024_o0_896_S2048x64 : S2048x1024.Slices ![0, 896] S2048x64
  slices_S512x1024_o0_960_S512x64 : S512x1024.Slices ![0, 960] S512x64
  slices_S2048x1024_o0_960_S2048x64 : S2048x1024.Slices ![0, 960] S2048x64
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .bf16 = 32 ∨ (Rect.block (s := S3072x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .bf16 = 32 ∨ (Rect.block (s := S4096x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x2048x3072.size a
  hwx1_0 : ∀ i : grid1.Coords, EltTy.bits .bf16 = 32 ∨ (Rect.block (s := S2x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S2x2048x3072.size a
  hwx1_1 : ∀ i : grid1.Coords, EltTy.bits .bf16 = 32 ∨ (Rect.block (s := S2x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S2x2048x3072.size a
  hwx1_2 : ∀ i : grid1.Coords, EltTy.bits .bf16 = 32 ∨ (Rect.block (s := S2x2048x3072) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S2x2048x1024.size a
  hwx1_4 : ∀ i : grid1.Coords, EltTy.bits .f32 = 32 ∨ (Rect.block (s := S2x2048x1024) S1x512x1024.size (cc1_transform_4 i) (hinb1_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.FrameB0.lean ====
/-
  The first kernel's half of the frame: what the projection kernel's body does to its three staging buffers at any
  grid point, and the proof data of its pipeline, stated at the buffer contents the region is entered with.
-/
import proofs.«143165_j48859547959308_2_alg».proof.Proof.Gen.Kernel.Launch
import proofs.«143165_j48859547959308_2_alg».proof.Proof.Gen.Kernel.Skeleton
import proofs.«143165_j48859547959308_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel (the projection `a · bᵀ`), at the buffer contents `V` the region is entered with -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds its block at every point: between fetches its block index does not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a 512 × 1024 buffer and of a 1024 × 1024 buffer: the body's only accesses. -/
abbrev r0_a : Rect S512x1024 := Rect.unit (s := S512x1024) ![0, 0] S512x1024.size inb_S512x1024_S512x1024_0_0
abbrev r0_b : Rect S1024x1024 := Rect.unit (s := S1024x1024) ![0, 0] S1024x1024.size inb_S1024x1024_S1024x1024_0_0

/-- What the body leaves in the output window's buffer: its one whole-buffer store of the product of the two loaded blocks. -/
def out0_2 (x0 : Vec F S512x1024 .bf16) (x1 : Vec F S1024x1024 .bf16) : Vec F S512x1024 .bf16 :=
  View.canon [⟨r0_a, k0_pay1 (View.ld x0 r0_a) (View.ld x1 r0_b)⟩]

/-- The one store covers the buffer. -/
theorem cover0_2 (p0 : Vec F S512x1024 .bf16) (y : S512x1024.Idx) :
    ∃ pc ∈ ([⟨r0_a, p0⟩] : List (View.Piece (Elt F) S512x1024 .bf16)), y ∈ pc.1.set :=
  View.cover_of_tiled [⟨r0_a, p0⟩] S512x1024.size (by rfl) y

set_option maxHeartbeats 1000000 in
/-- The body on whole staging buffers: the two inputs are left as found and the output buffer ends at `out0_2` of them. -/
theorem sound_kernel0 (c : Dev nD) (E : Set ℕ) (i : grid0.Coords) (arg2 : Memref sig .tc .vmem S512x1024 .bf16) (harg2 : arg2.IsWhole)
    (arg3 : Memref sig .tc .vmem S1024x1024 .bf16) (harg3 : arg3.IsWhole) (arg4 : Memref sig .tc .vmem S512x1024 .bf16) (harg4 : arg4.IsWhole)
    (x0 : Vec F S512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__linear_kernel i arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the first pipeline -/

/-- The arrays as the region finds them; after the body each input's buffer at its block and the output's at the
    product of the two input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand
end
-- ==== Proof.BodyB1.lean ====
/-
  The value the attention kernel's body stores, as one function of the four blocks it loads: the sixteen heads'
  outputs side by side, times the output weights transposed.
-/
import proofs.«143165_j48859547959308_2_alg».proof.Proof.Gen.Kernel.Skeleton

noncomputable section

namespace Cert.Kernel.Hand

open Cert.Kernel Cert.Kernel.Gen Idealize.ShloMosaic

variable {F : FTy → Type} [FloatOps F]

/-- The sixteen heads' outputs of a query block against a batch's keys and values, head `h` in columns
    `[64 h, 64 h + 64)`. -/
def heads1 (v0 : Vec F S1x512x1024 .bf16) (v2 v4 : Vec F S1x2048x1024 .bf16) : FVec F S512x1024 .f32 :=
  concatenate S512x1024 1 [⟨S512x64, k1_pay6 v0 v2 v4⟩,
    ⟨S512x64, k1_pay9 (k1_pay7 v4) (k1_pay8 v0 v2) (constant S512x64 .f32 0x00000000#32)⟩,
    ⟨S512x64, k1_pay10 (k1_pay3 v0) (k1_pay4 v2) (k1_pay5 v4)⟩,
    ⟨S512x64, k1_pay11 (k1_pay3 v0) (k1_pay4 v2) (k1_pay5 v4)⟩,
    ⟨S512x64, k1_pay14 (k1_pay12 (k1_pay5 v4)) (k1_pay13 (k1_pay3 v0) (k1_pay4 v2))⟩,
    ⟨S512x64, k1_pay15 (k1_pay3 v0) (k1_pay4 v2) (k1_pay5 v4)⟩,
    ⟨S512x64, k1_pay16 (k1_pay3 v0) (k1_pay4 v2) (k1_pay5 v4)⟩,
    ⟨S512x64, k1_pay19 (k1_pay17 (k1_pay5 v4)) (k1_pay18 (k1_pay3 v0) (k1_pay4 v2))⟩,
    ⟨S512x64, k1_pay20 (k1_pay3 v0) (k1_pay4 v2) (k1_pay5 v4)⟩,
    ⟨S512x64, k1_pay21 (k1_pay3 v0) (k1_pay4 v2) (k1_pay5 v4)⟩,
    ⟨S512x64, k1_pay25 (k1_pay22 (k1_pay3 v0)) (k1_pay23 (k1_pay4 v2)) (k1_pay24 (k1_pay5 v4))⟩,
    ⟨S512x64, k1_pay26 (k1_pay3 v0) (k1_pay4 v2) (k1_pay5 v4)⟩,
    ⟨S512x64, k1_pay29 (k1_pay27 (k1_pay5 v4)) (k1_pay28 (k1_pay3 v0) (k1_pay4 v2))⟩,
    ⟨S512x64, k1_pay30 (k1_pay3 v0) (k1_pay4 v2) (k1_pay5 v4)⟩,
    ⟨S512x64, k1_pay31 (k1_pay3 v0) (k1_pay4 v2) (k1_pay5 v4)⟩,
    ⟨S512x64, k1_pay1 (k1_pay32 (k1_pay5 v4)) (k1_pay33 (k1_pay3 v0) (k1_pay4 v2))⟩]
    concatenates_S512x64_S512x64_S512x64_S512x64_S512x64_S512x64_S512x64_S512x64_S512x64_S512x64_S512x64_S512x64_S512x64_S512x64_S512x64_S512x64_S512x1024_d1

/-- What the body stores: the heads' outputs times the output weights transposed, as a `[1, 512, 1024]` block. -/
def stored1 (v0 : Vec F S1x512x1024 .bf16) (v2 v4 : Vec F S1x2048x1024 .bf16) (v279 : Vec F S1024x1024 .bf16) : FVec F S1x512x1024 .f32 :=
  k1_pay2 (heads1 v0 v2 v4) v279

end Cert.Kernel.Hand

end
-- ==== Proof.FrameB1.lean ====
/-
  The second kernel's half of the frame: the attention kernel's body as five loads and one store, what it does to its
  five staging buffers at any grid point, and the proof data of its pipeline, stated at the buffer contents the
  region is entered with.
-/
import proofs.«143165_j48859547959308_2_alg».proof.Proof.Gen.Kernel.Launch
import proofs.«143165_j48859547959308_2_alg».proof.Proof.Gen.Kernel.Skeleton
import proofs.«143165_j48859547959308_2_alg».proof.Proof.Gen.Kernel.Points
import proofs.«143165_j48859547959308_2_alg».proof.Proof.BodyB1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The attention kernel's body as its memory operations only: five whole-buffer loads and one whole-buffer store of
    `stored1` of the four loaded input blocks. -/
noncomputable def flat1 (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x512x1024 .f32) (harg6 : arg6.IsWhole) :
    Prog (TpuEff nD τ sig (Elt F) Λ₀ .tc) PUnit := do
  let v0 : Vec F S1x512x1024 .bf16 ← Prog.lift (.load arg2 (Rect.unit (s := S1x512x1024) ![0, 0, 0] S1x512x1024.size inb_S1x512x1024_S1x512x1024_0_0_0).toLoadRect (View.loadsAt_vmem h_S1x512x1024))
  let v2 : Vec F S1x2048x1024 .bf16 ← Prog.lift (.load arg3 (Rect.unit (s := S1x2048x1024) ![0, 0, 0] S1x2048x1024.size inb_S1x2048x1024_S1x2048x1024_0_0_0).toLoadRect (View.loadsAt_vmem h_S1x2048x1024))
  let v4 : Vec F S1x2048x1024 .bf16 ← Prog.lift (.load arg4 (Rect.unit (s := S1x2048x1024) ![0, 0, 0] S1x2048x1024.size inb_S1x2048x1024_S1x2048x1024_0_0_0).toLoadRect (View.loadsAt_vmem h_S1x2048x1024))
  let v279 : Vec F S1024x1024 .bf16 ← Prog.lift (.load arg5 (Rect.unit (s := S1024x1024) ![0, 0] S1024x1024.size inb_S1024x1024_S1024x1024_0_0).toLoadRect (View.loadsAt_vmem h_S1024x1024))
  let v283 : Vec F S1x512x1024 .f32 ← Prog.lift (.load arg6 (Rect.unit (s := S1x512x1024) ![0, 0, 0] S1x512x1024.size inb_S1x512x1024_S1x512x1024_0_0_0).toLoadRect (View.loadsAt_vmem h_S1x512x1024))
  Prog.lift (.store arg6 (Rect.unit (s := S1x512x1024) ![0, 0, 0] S1x512x1024.size inb_S1x512x1024_S1x512x1024_0_0_0) (stored1 v0 v2 v4 v279) Finset.univ (View.stores_vmem_bits_univ h_S1x512x1024 rfl) (.inl rfl))
  pure ⟨⟩

set_option maxRecDepth 65536 in
set_option maxHeartbeats 2000000 in
/-- The printed body is that sequence: its six parts only compute, and their results are exactly the arguments of the
    sixteen heads' concatenation. -/
theorem cc1_kernel_eq_flat : cc1_kernel (F := F) = flat1 (F := F) := rfl

/-! # The second kernel (attention and the output projection), at the buffer contents `V` the region is entered with -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not: between fetches a
    window's block index does not move. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles of the four kinds of buffer: the body's only accesses. -/
abbrev r1_q : Rect S1x512x1024 := Rect.unit (s := S1x512x1024) ![0, 0, 0] S1x512x1024.size inb_S1x512x1024_S1x512x1024_0_0_0
abbrev r1_kv : Rect S1x2048x1024 := Rect.unit (s := S1x2048x1024) ![0, 0, 0] S1x2048x1024.size inb_S1x2048x1024_S1x2048x1024_0_0_0
abbrev r1_w : Rect S1024x1024 := Rect.unit (s := S1024x1024) ![0, 0] S1024x1024.size inb_S1024x1024_S1024x1024_0_0

/-- What the body leaves in the output window's buffer: its one whole-buffer store. -/
def out1_4 (x0 : Vec F S1x512x1024 .bf16) (x1 x2 : Vec F S1x2048x1024 .bf16) (x3 : Vec F S1024x1024 .bf16) : Vec F S1x512x1024 .f32 :=
  View.canon [⟨r1_q, stored1 (View.ld x0 r1_q) (View.ld x1 r1_kv) (View.ld x2 r1_kv) (View.ld x3 r1_w)⟩]

/-- The one store covers the buffer. -/
theorem cover1_4 (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

set_option maxHeartbeats 4000000 in
/-- The body on whole staging buffers: the four inputs are left as found and the output buffer ends at `out1_4` of them. -/
theorem sound_kernel1 (c : Dev nD) (E : Set ℕ) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x512x1024 .f32) (harg6 : arg6.IsWhole)
    (x0 : Vec F S1x512x1024 .bf16) (x1 x2 : Vec F S1x2048x1024 .bf16) (x3 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1_kernel i arg2 harg2 arg3 harg3 arg4 harg4 arg5 harg5 arg6 harg6) K := by
  rw [cc1_kernel_eq_flat]; unfold flat1
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of the second pipeline -/

/-- The arrays as the region finds them; after the body each input's buffer at its block and the output's at what the
    body stores; nothing owed. The query, key and value windows read ONE array: its full share is dealt among them,
    a half and two quarters. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1

end Cert.Kernel.Hand
end
-- ==== Proof.FrameBRun.lean ====
/-
  The run of @main as four segments — a stretch of host operations, the projection kernel, a reshape, the attention
  kernel — from the launch to the return: the buffer contents at every segment boundary, the two kernels' regions
  over "every unscoped buffer at the boundary's contents", and the frame with every unscoped buffer's final contents
  named. The attention kernel reads one array through three windows; its full share is dealt among them at the
  region's entry and gathered again at its exit.
-/
import proofs.«143165_j48859547959308_2_alg».proof.Proof.FrameB0
import proofs.«143165_j48859547959308_2_alg».proof.Proof.FrameB1
import proofs.«143165_j48859547959308_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch (the three narrowings and the flattening of the activations). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the projection to `[2, 2048, 3072]`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- What the attention kernel's pipeline leaves in its output array. -/
def res1 (c : Dev nD) : Buf (Elt F) ((c : Thread nD τ).loc main_v6) := (dat1 (V3 m ρ) c).arrAt 4 cfg1.N
/-- At the attention kernel's exit: only its output array has changed. -/
def W4 (c : Dev nD) : Valuation τ sig (Elt F) := Function.update (W3 m ρ c) main_v6 (res1 m ρ c)
abbrev V4 : (c : Dev nD) → (b : Ref sig .tc) → Buf (Elt F) ((c : Thread nD τ).loc b) := fun c b => W4 m ρ c b
theorem W4_out (c : Dev nD) : W4 m ρ c (Proc.devRef .tc main_v6) = res1 m ρ c := by
  unfold W4; exact Function.update_self ..
theorem W4_of_ne (c : Dev nD) (b : Ref sig .tc) (hb : b ≠ main_v6) :
    W4 m ρ c (Proc.devRef .tc b) = W3 m ρ c (Proc.devRef .tc b) := by
  unfold W4
  exact Function.update_of_ne (StableHlo.devRef_ne_of_ne hb : (Proc.devRef .tc b : DevRef τ sig) ≠ Proc.devRef .tc main_v6) _ _

/-! ### The arguments end as launched -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## One array behind three windows: dealing its share out and gathering it again -/

section Shared
variable (c : Dev nD)

/-- The three distinct buffers behind the attention kernel's five windows. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v2) ↦{fullShare} V main_v2)
          ∗ (((c : Thread nD τ).loc main_v6) ↦{fullShare} V main_v6)) := by
  unfold Pipeline.arrBufs
  exact bigSep_eq_bigSepL_of_eq [main_v5, main_v2, main_v6] (by decide) (by decide) _

/-- The pipeline's arrays, window by window: the shared array three times at the dealt shares. -/
theorem arrays1_eq (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v5) ↦{fullShare.left} G 0) ∗ (((c : Thread nD τ).loc main_v5) ↦{fullShare.right.left} G 1)
          ∗ (((c : Thread nD τ).loc main_v5) ↦{fullShare.right.right} G 2) ∗ (((c : Thread nD τ).loc main_v2) ↦{fullShare} G 3)
          ∗ (((c : Thread nD τ).loc main_v6) ↦{fullShare} G 4)) := by
  unfold Dat.arrays
  rw [bigSep_congr (Ψ := fun w : Fin cfg1.W => (((c : Thread nD τ).loc (Pipeline.arrRef spec1 w)) ↦{(dat1 V c).share w} G w : sProp 𝕄))
    (fun w _ => by rw [(arr_whole1 w).set_eq_univ]), bigSep_W1]
  rfl

end Shared

/-! ## The regions as segments -/

set_option backward.isDefEq.respectTransparency.types false in
/-- The projection kernel's region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- ENTRY of the attention kernel's region, the arrays' part: the unscoped buffers at `V3` are the five windows'
    arrays at the entry contents — the shared array's full share split in a half and two quarters — and the rest. -/
theorem entry1 (c : Dev nD) :
    (unscopedBufs c (V3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  have hs : (unscopedBufs c (V3 m ρ c) : sProp 𝕄)
      = iprop(Pipeline.arrBufs (Ix := Unit) (Name := ℕ) (U := UR sig nD τ) (Lvl := ℕ) spec1 c (V3 m ρ c)
          ∗ Pipeline.unscopedRest (Ix := Unit) (Name := ℕ) (U := UR sig nD τ) (Lvl := ℕ) spec1 c (V3 m ρ c)) :=
    Pipeline.unscopedBufs_split₀ (Ix := Unit) (Name := ℕ) (U := UR sig nD τ) (Lvl := ℕ) cfgs 1 winFacts₀1.arr_unscoped c (V3 m ρ c)
  rw [hs, arrBufs1_eq c (V3 m ρ c), arrays1_eq c (V3 m ρ)]
  iintro ⟨⟨H5, H2, H6⟩, Hrest⟩
  isplitr [Hrest]
  swap; · iexact Hrest
  ihave Hs := (pointsTo_share (PosShare.mem_left_op_right fullShare)).1 $$ H5
  icases Hs with ⟨Hl, Hr⟩
  ihave Hs' := (pointsTo_share (PosShare.mem_left_op_right fullShare.right)).1 $$ Hr
  icases Hs' with ⟨Hrl, Hrr⟩
  isplitl [Hl]; · iexact Hl
  isplitl [Hrl]; · iexact Hrl
  isplitl [Hrr]; · iexact Hrr
  isplitl [H2]; · iexact H2
  iexact H6

/-- EXIT of the attention kernel's region, the arrays' part: the five windows' arrays at their final contents — the
    three views of the shared array as entered, the output at what the pipeline leaves — and the rest are the unscoped
    buffers at `V4`. -/
theorem exit1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (unscopedBufs c (V4 m ρ c) : sProp 𝕄) := by
  have hs : (unscopedBufs c (V4 m ρ c) : sProp 𝕄)
      = iprop(Pipeline.arrBufs (Ix := Unit) (Name := ℕ) (U := UR sig nD τ) (Lvl := ℕ) spec1 c (V4 m ρ c)
          ∗ Pipeline.unscopedRest (Ix := Unit) (Name := ℕ) (U := UR sig nD τ) (Lvl := ℕ) spec1 c (V4 m ρ c)) :=
    Pipeline.unscopedBufs_split₀ (Ix := Unit) (Name := ℕ) (U := UR sig nD τ) (Lvl := ℕ) cfgs 1 winFacts₀1.arr_unscoped c (V4 m ρ c)
  rw [hs, arrBufs1_eq c (V4 m ρ c), arrays1_eq c (V3 m ρ)]
  have h0 : (dat1 (V3 m ρ) c).arrAt 0 cfg1.N = V4 m ρ c main_v5 :=
    ((dat1 (V3 m ρ) c).arrAt_in 0 rfl _).trans ((A_eq1 (V3 m ρ) c 0).trans (W4_of_ne m ρ c main_v5 (by decide)).symm)
  have h1 : (dat1 (V3 m ρ) c).arrAt 1 cfg1.N = V4 m ρ c main_v5 :=
    ((dat1 (V3 m ρ) c).arrAt_in 1 rfl _).trans ((A_eq1 (V3 m ρ) c 1).trans (W4_of_ne m ρ c main_v5 (by decide)).symm)
  have h2 : (dat1 (V3 m ρ) c).arrAt 2 cfg1.N = V4 m ρ c main_v5 :=
    ((dat1 (V3 m ρ) c).arrAt_in 2 rfl _).trans ((A_eq1 (V3 m ρ) c 2).trans (W4_of_ne m ρ c main_v5 (by decide)).symm)
  have h3 : (dat1 (V3 m ρ) c).arrAt 3 cfg1.N = V4 m ρ c main_v2 :=
    ((dat1 (V3 m ρ) c).arrAt_in 3 rfl _).trans ((A_eq1 (V3 m ρ) c 3).trans (W4_of_ne m ρ c main_v2 (by decide)).symm)
  have h4 : (dat1 (V3 m ρ) c).arrAt 4 cfg1.N = V4 m ρ c main_v6 := (W4_out m ρ c).symm
  rw [h0, h1, h2, h3, h4]
  have hrest : Pipeline.unscopedRest (Ix := Unit) (Name := ℕ) (U := UR sig nD τ) (Lvl := ℕ) (Val := Elt F) spec1 c (V3 m ρ c)
      = Pipeline.unscopedRest (Ix := Unit) (Name := ℕ) (U := UR sig nD τ) (Lvl := ℕ) spec1 c (V4 m ρ c) := by
    unfold Pipeline.unscopedRest
    refine bigSep_congr fun b hb => ?_
    exact congrArg _ (W4_of_ne m ρ c b fun e => (Finset.mem_sdiff.mp hb).2 (by rw [e]; decide)).symm
  rw [hrest]
  iintro ⟨⟨Hl, Hrl, Hrr, H2, H6⟩, Hrest⟩
  isplitr [Hrest]
  swap; · iexact Hrest
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  isplitl [H2]; · iexact H2
  iexact H6

set_option backward.isDefEq.respectTransparency.types false in
/-- The attention kernel's region over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting,
    and the final memory holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run with the result array and the three arguments named. -/
theorem run_main : θ_run defs (onTc (τ := τ) (main (F := F))) ⟨m, fun _ => 0, ρ⟩ (fun r => ∀ c : Dev nD,
      r.2.mem ((c.tc : Thread nD τ).loc main_v6) = res1 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v6 (by decide))).trans (W4_out m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.Kernel.Hand
end
-- ==== Proof.FrameI0.lean ====
/-
  The first kernel's half of the frame: what the projection kernel's body does to its three staging buffers at any
  grid point, and the proof data of its pipeline, stated at the buffer contents the region is entered with.
-/
import proofs.«143165_j48859547959308_2_alg».proof.Proof.Gen.KernelIdeal.Launch
import proofs.«143165_j48859547959308_2_alg».proof.Proof.Gen.KernelIdeal.Skeleton
import proofs.«143165_j48859547959308_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel (the projection `a · bᵀ`), at the buffer contents `V` the region is entered with -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds its block at every point: between fetches its block index does not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a 512 × 1024 buffer and of a 1024 × 1024 buffer: the body's only accesses. -/
abbrev r0_a : Rect S512x1024 := Rect.unit (s := S512x1024) ![0, 0] S512x1024.size inb_S512x1024_S512x1024_0_0
abbrev r0_b : Rect S1024x1024 := Rect.unit (s := S1024x1024) ![0, 0] S1024x1024.size inb_S1024x1024_S1024x1024_0_0

/-- What the body leaves in the output window's buffer: its one whole-buffer store of the product of the two loaded blocks. -/
def out0_2 (x0 : Vec F S512x1024 .bf16) (x1 : Vec F S1024x1024 .bf16) : Vec F S512x1024 .bf16 :=
  View.canon [⟨r0_a, k0_pay1 (View.ld x0 r0_a) (View.ld x1 r0_b)⟩]

/-- The one store covers the buffer. -/
theorem cover0_2 (p0 : Vec F S512x1024 .bf16) (y : S512x1024.Idx) :
    ∃ pc ∈ ([⟨r0_a, p0⟩] : List (View.Piece (Elt F) S512x1024 .bf16)), y ∈ pc.1.set :=
  View.cover_of_tiled [⟨r0_a, p0⟩] S512x1024.size (by rfl) y

set_option maxHeartbeats 1000000 in
/-- The body on whole staging buffers: the two inputs are left as found and the output buffer ends at `out0_2` of them. -/
theorem sound_kernel0 (c : Dev nD) (E : Set ℕ) (i : grid0.Coords) (arg2 : Memref sig .tc .vmem S512x1024 .bf16) (harg2 : arg2.IsWhole)
    (arg3 : Memref sig .tc .vmem S1024x1024 .bf16) (harg3 : arg3.IsWhole) (arg4 : Memref sig .tc .vmem S512x1024 .bf16) (harg4 : arg4.IsWhole)
    (x0 : Vec F S512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__linear_kernel i arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the first pipeline -/

/-- The arrays as the region finds them; after the body each input's buffer at its block and the output's at the
    product of the two input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand
end
-- ==== Proof.BodyI1.lean ====
/-
  The value the attention kernel's body stores, as one function of the four blocks it loads: the sixteen heads'
  outputs side by side, times the output weights transposed.
-/
import proofs.«143165_j48859547959308_2_alg».proof.Proof.Gen.KernelIdeal.Skeleton

noncomputable section

namespace Cert.KernelIdeal.Hand

open Cert.KernelIdeal Cert.KernelIdeal.Gen Idealize.ShloMosaic

variable {F : FTy → Type} [FloatOps F]

/-- The sixteen heads' outputs of a query block against a batch's keys and values, head `h` in columns
    `[64 h, 64 h + 64)`. -/
def heads1 (v0 : Vec F S1x512x1024 .bf16) (v2 v4 : Vec F S1x2048x1024 .bf16) : FVec F S512x1024 .f32 :=
  concatenate S512x1024 1 [⟨S512x64, k1_pay6 v0 v2 v4⟩,
    ⟨S512x64, k1_pay9 (k1_pay7 v4) (k1_pay8 v0 v2) (constant S512x64 .f32 0x00000000#32)⟩,
    ⟨S512x64, k1_pay10 (k1_pay3 v0) (k1_pay4 v2) (k1_pay5 v4)⟩,
    ⟨S512x64, k1_pay11 (k1_pay3 v0) (k1_pay4 v2) (k1_pay5 v4)⟩,
    ⟨S512x64, k1_pay14 (k1_pay12 (k1_pay5 v4)) (k1_pay13 (k1_pay3 v0) (k1_pay4 v2))⟩,
    ⟨S512x64, k1_pay15 (k1_pay3 v0) (k1_pay4 v2) (k1_pay5 v4)⟩,
    ⟨S512x64, k1_pay16 (k1_pay3 v0) (k1_pay4 v2) (k1_pay5 v4)⟩,
    ⟨S512x64, k1_pay19 (k1_pay17 (k1_pay5 v4)) (k1_pay18 (k1_pay3 v0) (k1_pay4 v2))⟩,
    ⟨S512x64, k1_pay20 (k1_pay3 v0) (k1_pay4 v2) (k1_pay5 v4)⟩,
    ⟨S512x64, k1_pay21 (k1_pay3 v0) (k1_pay4 v2) (k1_pay5 v4)⟩,
    ⟨S512x64, k1_pay25 (k1_pay22 (k1_pay3 v0)) (k1_pay23 (k1_pay4 v2)) (k1_pay24 (k1_pay5 v4))⟩,
    ⟨S512x64, k1_pay26 (k1_pay3 v0) (k1_pay4 v2) (k1_pay5 v4)⟩,
    ⟨S512x64, k1_pay29 (k1_pay27 (k1_pay5 v4)) (k1_pay28 (k1_pay3 v0) (k1_pay4 v2))⟩,
    ⟨S512x64, k1_pay30 (k1_pay3 v0) (k1_pay4 v2) (k1_pay5 v4)⟩,
    ⟨S512x64, k1_pay31 (k1_pay3 v0) (k1_pay4 v2) (k1_pay5 v4)⟩,
    ⟨S512x64, k1_pay1 (k1_pay32 (k1_pay5 v4)) (k1_pay33 (k1_pay3 v0) (k1_pay4 v2))⟩]
    concatenates_S512x64_S512x64_S512x64_S512x64_S512x64_S512x64_S512x64_S512x64_S512x64_S512x64_S512x64_S512x64_S512x64_S512x64_S512x64_S512x64_S512x1024_d1

/-- What the body stores: the heads' outputs times the output weights transposed, as a `[1, 512, 1024]` block. -/
def stored1 (v0 : Vec F S1x512x1024 .bf16) (v2 v4 : Vec F S1x2048x1024 .bf16) (v279 : Vec F S1024x1024 .bf16) : FVec F S1x512x1024 .f32 :=
  k1_pay2 (heads1 v0 v2 v4) v279

end Cert.KernelIdeal.Hand

end
-- ==== Proof.FrameI1.lean ====
/-
  The second kernel's half of the frame: the attention kernel's body as five loads and one store, what it does to its
  five staging buffers at any grid point, and the proof data of its pipeline, stated at the buffer contents the
  region is entered with.
-/
import proofs.«143165_j48859547959308_2_alg».proof.Proof.Gen.KernelIdeal.Launch
import proofs.«143165_j48859547959308_2_alg».proof.Proof.Gen.KernelIdeal.Skeleton
import proofs.«143165_j48859547959308_2_alg».proof.Proof.Gen.KernelIdeal.Points
import proofs.«143165_j48859547959308_2_alg».proof.Proof.BodyI1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The attention kernel's body as its memory operations only: five whole-buffer loads and one whole-buffer store of
    `stored1` of the four loaded input blocks. -/
noncomputable def flat1 (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x512x1024 .f32) (harg6 : arg6.IsWhole) :
    Prog (TpuEff nD τ sig (Elt F) Λ₀ .tc) PUnit := do
  let v0 : Vec F S1x512x1024 .bf16 ← Prog.lift (.load arg2 (Rect.unit (s := S1x512x1024) ![0, 0, 0] S1x512x1024.size inb_S1x512x1024_S1x512x1024_0_0_0).toLoadRect (View.loadsAt_vmem h_S1x512x1024))
  let v2 : Vec F S1x2048x1024 .bf16 ← Prog.lift (.load arg3 (Rect.unit (s := S1x2048x1024) ![0, 0, 0] S1x2048x1024.size inb_S1x2048x1024_S1x2048x1024_0_0_0).toLoadRect (View.loadsAt_vmem h_S1x2048x1024))
  let v4 : Vec F S1x2048x1024 .bf16 ← Prog.lift (.load arg4 (Rect.unit (s := S1x2048x1024) ![0, 0, 0] S1x2048x1024.size inb_S1x2048x1024_S1x2048x1024_0_0_0).toLoadRect (View.loadsAt_vmem h_S1x2048x1024))
  let v279 : Vec F S1024x1024 .bf16 ← Prog.lift (.load arg5 (Rect.unit (s := S1024x1024) ![0, 0] S1024x1024.size inb_S1024x1024_S1024x1024_0_0).toLoadRect (View.loadsAt_vmem h_S1024x1024))
  let v283 : Vec F S1x512x1024 .f32 ← Prog.lift (.load arg6 (Rect.unit (s := S1x512x1024) ![0, 0, 0] S1x512x1024.size inb_S1x512x1024_S1x512x1024_0_0_0).toLoadRect (View.loadsAt_vmem h_S1x512x1024))
  Prog.lift (.store arg6 (Rect.unit (s := S1x512x1024) ![0, 0, 0] S1x512x1024.size inb_S1x512x1024_S1x512x1024_0_0_0) (stored1 v0 v2 v4 v279) Finset.univ (View.stores_vmem_bits_univ h_S1x512x1024 rfl) (.inl rfl))
  pure ⟨⟩

set_option maxRecDepth 65536 in
set_option maxHeartbeats 2000000 in
/-- The printed body is that sequence: its six parts only compute, and their results are exactly the arguments of the
    sixteen heads' concatenation. -/
theorem cc1_kernel_eq_flat : cc1_kernel (F := F) = flat1 (F := F) := rfl

/-! # The second kernel (attention and the output projection), at the buffer contents `V` the region is entered with -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not: between fetches a
    window's block index does not move. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles of the four kinds of buffer: the body's only accesses. -/
abbrev r1_q : Rect S1x512x1024 := Rect.unit (s := S1x512x1024) ![0, 0, 0] S1x512x1024.size inb_S1x512x1024_S1x512x1024_0_0_0
abbrev r1_kv : Rect S1x2048x1024 := Rect.unit (s := S1x2048x1024) ![0, 0, 0] S1x2048x1024.size inb_S1x2048x1024_S1x2048x1024_0_0_0
abbrev r1_w : Rect S1024x1024 := Rect.unit (s := S1024x1024) ![0, 0] S1024x1024.size inb_S1024x1024_S1024x1024_0_0

/-- What the body leaves in the output window's buffer: its one whole-buffer store. -/
def out1_4 (x0 : Vec F S1x512x1024 .bf16) (x1 x2 : Vec F S1x2048x1024 .bf16) (x3 : Vec F S1024x1024 .bf16) : Vec F S1x512x1024 .f32 :=
  View.canon [⟨r1_q, stored1 (View.ld x0 r1_q) (View.ld x1 r1_kv) (View.ld x2 r1_kv) (View.ld x3 r1_w)⟩]

/-- The one store covers the buffer. -/
theorem cover1_4 (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

set_option maxHeartbeats 4000000 in
/-- The body on whole staging buffers: the four inputs are left as found and the output buffer ends at `out1_4` of them. -/
theorem sound_kernel1 (c : Dev nD) (E : Set ℕ) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x512x1024 .f32) (harg6 : arg6.IsWhole)
    (x0 : Vec F S1x512x1024 .bf16) (x1 x2 : Vec F S1x2048x1024 .bf16) (x3 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1_kernel i arg2 harg2 arg3 harg3 arg4 harg4 arg5 harg5 arg6 harg6) K := by
  rw [cc1_kernel_eq_flat]; unfold flat1
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of the second pipeline -/

/-- The arrays as the region finds them; after the body each input's buffer at its block and the output's at what the
    body stores; nothing owed. The query, key and value windows read ONE array: its full share is dealt among them,
    a half and two quarters. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
end
-- ==== Proof.FrameIRun.lean ====
/-
  The run of @main as four segments — a stretch of host operations, the projection kernel, a reshape, the attention
  kernel — from the launch to the return: the buffer contents at every segment boundary, the two kernels' regions
  over "every unscoped buffer at the boundary's contents", and the frame with every unscoped buffer's final contents
  named. The attention kernel reads one array through three windows; its full share is dealt among them at the
  region's entry and gathered again at its exit.
-/
import proofs.«143165_j48859547959308_2_alg».proof.Proof.FrameI0
import proofs.«143165_j48859547959308_2_alg».proof.Proof.FrameI1
import proofs.«143165_j48859547959308_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch (the three narrowings and the flattening of the activations). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the projection to `[2, 2048, 3072]`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- What the attention kernel's pipeline leaves in its output array. -/
def res1 (c : Dev nD) : Buf (Elt F) ((c : Thread nD τ).loc main_v6) := (dat1 (V3 m ρ) c).arrAt 4 cfg1.N
/-- At the attention kernel's exit: only its output array has changed. -/
def W4 (c : Dev nD) : Valuation τ sig (Elt F) := Function.update (W3 m ρ c) main_v6 (res1 m ρ c)
abbrev V4 : (c : Dev nD) → (b : Ref sig .tc) → Buf (Elt F) ((c : Thread nD τ).loc b) := fun c b => W4 m ρ c b
theorem W4_out (c : Dev nD) : W4 m ρ c (Proc.devRef .tc main_v6) = res1 m ρ c := by
  unfold W4; exact Function.update_self ..
theorem W4_of_ne (c : Dev nD) (b : Ref sig .tc) (hb : b ≠ main_v6) :
    W4 m ρ c (Proc.devRef .tc b) = W3 m ρ c (Proc.devRef .tc b) := by
  unfold W4
  exact Function.update_of_ne (StableHlo.devRef_ne_of_ne hb : (Proc.devRef .tc b : DevRef τ sig) ≠ Proc.devRef .tc main_v6) _ _

/-! ### The arguments end as launched -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## One array behind three windows: dealing its share out and gathering it again -/

section Shared
variable (c : Dev nD)

/-- The three distinct buffers behind the attention kernel's five windows. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v2) ↦{fullShare} V main_v2)
          ∗ (((c : Thread nD τ).loc main_v6) ↦{fullShare} V main_v6)) := by
  unfold Pipeline.arrBufs
  exact bigSep_eq_bigSepL_of_eq [main_v5, main_v2, main_v6] (by decide) (by decide) _

/-- The pipeline's arrays, window by window: the shared array three times at the dealt shares. -/
theorem arrays1_eq (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v5) ↦{fullShare.left} G 0) ∗ (((c : Thread nD τ).loc main_v5) ↦{fullShare.right.left} G 1)
          ∗ (((c : Thread nD τ).loc main_v5) ↦{fullShare.right.right} G 2) ∗ (((c : Thread nD τ).loc main_v2) ↦{fullShare} G 3)
          ∗ (((c : Thread nD τ).loc main_v6) ↦{fullShare} G 4)) := by
  unfold Dat.arrays
  rw [bigSep_congr (Ψ := fun w : Fin cfg1.W => (((c : Thread nD τ).loc (Pipeline.arrRef spec1 w)) ↦{(dat1 V c).share w} G w : sProp 𝕄))
    (fun w _ => by rw [(arr_whole1 w).set_eq_univ]), bigSep_W1]
  rfl

end Shared

/-! ## The regions as segments -/

set_option backward.isDefEq.respectTransparency.types false in
/-- The projection kernel's region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- ENTRY of the attention kernel's region, the arrays' part: the unscoped buffers at `V3` are the five windows'
    arrays at the entry contents — the shared array's full share split in a half and two quarters — and the rest. -/
theorem entry1 (c : Dev nD) :
    (unscopedBufs c (V3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  have hs : (unscopedBufs c (V3 m ρ c) : sProp 𝕄)
      = iprop(Pipeline.arrBufs (Ix := Unit) (Name := ℕ) (U := UR sig nD τ) (Lvl := ℕ) spec1 c (V3 m ρ c)
          ∗ Pipeline.unscopedRest (Ix := Unit) (Name := ℕ) (U := UR sig nD τ) (Lvl := ℕ) spec1 c (V3 m ρ c)) :=
    Pipeline.unscopedBufs_split₀ (Ix := Unit) (Name := ℕ) (U := UR sig nD τ) (Lvl := ℕ) cfgs 1 winFacts₀1.arr_unscoped c (V3 m ρ c)
  rw [hs, arrBufs1_eq c (V3 m ρ c), arrays1_eq c (V3 m ρ)]
  iintro ⟨⟨H5, H2, H6⟩, Hrest⟩
  isplitr [Hrest]
  swap; · iexact Hrest
  ihave Hs := (pointsTo_share (PosShare.mem_left_op_right fullShare)).1 $$ H5
  icases Hs with ⟨Hl, Hr⟩
  ihave Hs' := (pointsTo_share (PosShare.mem_left_op_right fullShare.right)).1 $$ Hr
  icases Hs' with ⟨Hrl, Hrr⟩
  isplitl [Hl]; · iexact Hl
  isplitl [Hrl]; · iexact Hrl
  isplitl [Hrr]; · iexact Hrr
  isplitl [H2]; · iexact H2
  iexact H6

/-- EXIT of the attention kernel's region, the arrays' part: the five windows' arrays at their final contents — the
    three views of the shared array as entered, the output at what the pipeline leaves — and the rest are the unscoped
    buffers at `V4`. -/
theorem exit1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (unscopedBufs c (V4 m ρ c) : sProp 𝕄) := by
  have hs : (unscopedBufs c (V4 m ρ c) : sProp 𝕄)
      = iprop(Pipeline.arrBufs (Ix := Unit) (Name := ℕ) (U := UR sig nD τ) (Lvl := ℕ) spec1 c (V4 m ρ c)
          ∗ Pipeline.unscopedRest (Ix := Unit) (Name := ℕ) (U := UR sig nD τ) (Lvl := ℕ) spec1 c (V4 m ρ c)) :=
    Pipeline.unscopedBufs_split₀ (Ix := Unit) (Name := ℕ) (U := UR sig nD τ) (Lvl := ℕ) cfgs 1 winFacts₀1.arr_unscoped c (V4 m ρ c)
  rw [hs, arrBufs1_eq c (V4 m ρ c), arrays1_eq c (V3 m ρ)]
  have h0 : (dat1 (V3 m ρ) c).arrAt 0 cfg1.N = V4 m ρ c main_v5 :=
    ((dat1 (V3 m ρ) c).arrAt_in 0 rfl _).trans ((A_eq1 (V3 m ρ) c 0).trans (W4_of_ne m ρ c main_v5 (by decide)).symm)
  have h1 : (dat1 (V3 m ρ) c).arrAt 1 cfg1.N = V4 m ρ c main_v5 :=
    ((dat1 (V3 m ρ) c).arrAt_in 1 rfl _).trans ((A_eq1 (V3 m ρ) c 1).trans (W4_of_ne m ρ c main_v5 (by decide)).symm)
  have h2 : (dat1 (V3 m ρ) c).arrAt 2 cfg1.N = V4 m ρ c main_v5 :=
    ((dat1 (V3 m ρ) c).arrAt_in 2 rfl _).trans ((A_eq1 (V3 m ρ) c 2).trans (W4_of_ne m ρ c main_v5 (by decide)).symm)
  have h3 : (dat1 (V3 m ρ) c).arrAt 3 cfg1.N = V4 m ρ c main_v2 :=
    ((dat1 (V3 m ρ) c).arrAt_in 3 rfl _).trans ((A_eq1 (V3 m ρ) c 3).trans (W4_of_ne m ρ c main_v2 (by decide)).symm)
  have h4 : (dat1 (V3 m ρ) c).arrAt 4 cfg1.N = V4 m ρ c main_v6 := (W4_out m ρ c).symm
  rw [h0, h1, h2, h3, h4]
  have hrest : Pipeline.unscopedRest (Ix := Unit) (Name := ℕ) (U := UR sig nD τ) (Lvl := ℕ) (Val := Elt F) spec1 c (V3 m ρ c)
      = Pipeline.unscopedRest (Ix := Unit) (Name := ℕ) (U := UR sig nD τ) (Lvl := ℕ) spec1 c (V4 m ρ c) := by
    unfold Pipeline.unscopedRest
    refine bigSep_congr fun b hb => ?_
    exact congrArg _ (W4_of_ne m ρ c b fun e => (Finset.mem_sdiff.mp hb).2 (by rw [e]; decide)).symm
  rw [hrest]
  iintro ⟨⟨Hl, Hrl, Hrr, H2, H6⟩, Hrest⟩
  isplitr [Hrest]
  swap; · iexact Hrest
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  isplitl [H2]; · iexact H2
  iexact H6

set_option backward.isDefEq.respectTransparency.types false in
/-- The attention kernel's region over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting,
    and the final memory holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run with the result array and the three arguments named. -/
theorem run_main : θ_run defs (onTc (τ := τ) (main (F := F))) ⟨m, fun _ => 0, ρ⟩ (fun r => ∀ c : Dev nD,
      r.2.mem ((c.tc : Thread nD τ).loc main_v6) = res1 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v6 (by decide))).trans (W4_out m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.KernelIdeal.Hand
end
-- ==== Proof.LibDotT.lean ====
/-
  A product of a rows-by-depth array with the TRANSPOSE of a columns-by-depth array, read at an index.

  For dimension numbers that contract the second axis of both operands (the `M × K` by `N × K` product `x · wᵀ`,
  what a linear layer with weights stored output-major computes), the sum over the contraction index that both the
  kernel's matrix unit and the host's `dot_general` denote on the extended reals is `Σ_k l (a, k) · r (b, k)`.
-/
import Idealize.ShloMosaic.PureOps.Ideal.Laws
import Idealize.ShloMosaic.Lib.ValueIdx

noncomputable section

open scoped BigOperators

namespace Cert.LibDotT

open Idealize.ShloMosaic Idealize.ShloMosaic.ValueIdx

variable {M K N : ℕ}

/-- The contraction sum of `x · wᵀ` at output index `(a, b)` is the sum over `k : Fin K` of `l (a, k) · r (b, k)`.
    The dimension numbers are given by their six lists, as a printed record states them. -/
theorem sum_eq (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![N, K]⟩) (so := ⟨2, ![M, N]⟩) [1] [1] [0] [0] [] [] wf).contr.rank = 1 := rfl
  have hs : (DotDims.mk (sl := ⟨2, ![M, K]⟩) (sr := ⟨2, ![N, K]⟩) (so := ⟨2, ![M, N]⟩) [1] [1] [0] [0] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![N, K]⟩) (so := ⟨2, ![M, N]⟩) [1] [1] [0] [0] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![N, K]⟩) (so := ⟨2, ![M, N]⟩) [1] [1] [0] [0] [] [] wf).rhsIdx (ix2 a b) ((contrEquiv1 _ K hr hs).symm k) = ix2 b k := by
    funext d
    match d with
    | ⟨0, _⟩ => rfl
    | ⟨1, _⟩ =>
      refine Fin.ext ?_
      exact (DotDims.rhsIdx_val_of_single _ (cr := 1) rfl (ix2 a b) _).trans (contrEquiv1_symm_val _ K hr hs k)
  rw [el, er]

end Cert.LibDotT

end
-- ==== Proof.BodyValue0.lean ====
/-
  The first kernel's body read at an index: a block of rows times the transpose of a block of weight rows.

  The body casts both loaded blocks to their own shapes (the identity), multiplies the first by the transpose of the
  second into a zero accumulator, and changes the format (the identity on extended reals). At `(r, g)` that is the
  sum over the shared axis of the products of row `r` of the first block and row `g` of the second.
-/
import proofs.«143165_j48859547959308_2_alg».proof.Proof.Gen.KernelIdeal.Skeleton
import proofs.«143165_j48859547959308_2_alg».proof.Proof.LibDotT
import Idealize.ShloMosaic.Lib.Pipeline.Value

noncomputable section

open scoped BigOperators

namespace Cert.BodyValue

open Idealize.ShloMosaic Idealize.ShloMosaic.ValueIdx Cert.KernelIdeal Cert.KernelIdeal.Gen

/-- The first kernel's stored value at row `r`, column `g`: row `r` of the input block against row `g` of the weight block. -/
theorem lin_apply (v0 : Vec Ideal S512x1024 .bf16) (v2 : Vec Ideal S1024x1024 .bf16) (r : Fin 512) (g : Fin 1024) :
    k0_pay1 (F := Ideal) v0 v2 (ix2 r g) = ∑ c : Fin 1024, v0 (ix2 r c) * v2 (ix2 g c) := by
  unfold k0_pay1
  rw [shapeCast_self, shapeCast_self]
  rw [truncf_apply]
  exact (Ideal.matmul_constant_zero_apply (φ₁ := .bf16) (φ₂ := .bf16)
    dot_S512x1024_S1024x1024_S512x1024_1_1_0_0_n_n none v0 v2 (ix2 r g)).trans
    (Cert.LibDotT.sum_eq dot_S512x1024_S1024x1024_S512x1024_1_1_0_0_n_n rfl rfl rfl rfl rfl rfl v0 v2 r g)

end Cert.BodyValue

end
-- ==== Proof.ArrI0.lean ====
/-
  The first kernel's output array after its whole pipeline: the product of the activations with the transposed
  weights, entry by entry. The grid point with block coordinates (i1, i0) stores block (i1, i0) of the output,
  512 rows by 1024 columns, computed from block row i1 of the activations and block row i0 of the weights; a
  block's coordinate in its array is always the block index times the block size plus the coordinate inside the
  block. So what each point writes back is that block of ONE whole-array function, the product; the 8 x 3 blocks
  cover the 4096 x 3072 array (entry (r, f) lies in block (r / 512, f / 1024)), hence the array ends holding the product.
-/
import proofs.«143165_j48859547959308_2_alg».proof.Proof.FrameI0
import proofs.«143165_j48859547959308_2_alg».proof.Proof.BodyValue0
import Idealize.ShloMosaic.Lib.Pipeline.Value

noncomputable section

namespace Cert.ArrI0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

/-- The zero offsets of a whole-buffer access. -/
theorem hz : (![0, 0] : Fin 2 → Nat) = fun _ => 0 := funext fun a => by fin_cases a <;> rfl

/-- Entry `(r, f)` of the product of `a` with the transpose of `w`. -/
def prodAt (a : S4096x1024.Idx → Elt Ideal .bf16) (w : S3072x1024.Idx → Elt Ideal .bf16) (r : Fin 4096) (f : Fin 3072) :
    Elt Ideal .bf16 :=
  ∑ k : Fin 1024, a (ix2 r k) * w (ix2 f k)

/-- The product as one function on the whole output array. -/
def G (a : S4096x1024.Idx → Elt Ideal .bf16) (w : S3072x1024.Idx → Elt Ideal .bf16) : S4096x3072.Idx → Elt Ideal .bf16 :=
  fun i => prodAt a w ⟨(i 0).val, idx2_lt0 i⟩ ⟨(i 1).val, idx2_lt1 i⟩

/-- The three index maps over the grid: the activations' block row and the weights' block row are the output's block
    row and block column, the inputs' block columns are zero, and the output's block indices stay in range. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 2 :=
  (by decide +kernel : ∀ t : Fin grid0.N, _)

/-- Every block of the output is some point's. -/
theorem idx_onto : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

/-- One stored entry: the body's value at `j` of a block of activations `x0` and a block of weights `x1`, which are
    block row `i1` of `a` and block row `i0` of `w`, is the product at the entry `i` that `j` has in block `(i1, i0)`. -/
theorem point_eq (a : S4096x1024.Idx → Elt Ideal .bf16) (w : S3072x1024.Idx → Elt Ideal .bf16)
    (x0 : Vec Ideal S512x1024 .bf16) (x1 : Vec Ideal S1024x1024 .bf16) (i1 i0 : Nat)
    (h0 : ∀ (r : Fin 512) (k : Fin 1024) (r' : Fin 4096), r'.val = i1 * 512 + r.val → x0 (ix2 r k) = a (ix2 r' k))
    (h1 : ∀ (g : Fin 1024) (k : Fin 1024) (g' : Fin 3072), g'.val = i0 * 1024 + g.val → x1 (ix2 g k) = w (ix2 g' k))
    (j : S512x1024.Idx) (i : S4096x3072.Idx) (hj0 : (i 0).val = i1 * 512 + (j 0).val)
    (hj1 : (i 1).val = i0 * 1024 + (j 1).val) :
    k0_pay1 (F := Ideal) x0 x1 j = G a w i := by
  obtain ⟨r, g, rfl⟩ : ∃ (r : Fin 512) (g : Fin 1024), j = ix2 r g := ⟨j 0, j 1, eq_ix2 j⟩
  rw [Cert.BodyValue.lin_apply]
  unfold G prodAt
  refine Finset.sum_congr rfl fun k _ => ?_
  rw [h0 r k ⟨(i 0).val, idx2_lt0 i⟩ hj0, h1 g k ⟨(i 1).val, idx2_lt1 i⟩ hj1]

section
variable (V : (c : Dev nD) → (b : Ref sig .tc) → Buf (Elt Ideal) ((c : Thread nD τ).loc b))

/-- The activations' block at a point is block row `i1` of the activations, all 1024 columns. -/
theorem act_blk (c : Dev nD) (t : Fin cfg0.N) (r : Fin 512) (k : Fin 1024) (r' : Fin 4096)
    (hr : r'.val = win0_2.index t (0 : Fin 2) * 512 + r.val) :
    (iblk0 (F := Ideal) V c 0 t : Vec Ideal S512x1024 .bf16) (ix2 r k)
      = (V c main_v3 : S4096x1024.Idx → Elt Ideal .bf16) (ix2 r' k) := by
  obtain ⟨e0, e1, e2, e3, e4, e5⟩ := idx_facts t
  unfold iblk0
  rw [View.read_apply]
  show (V c main_v3 : S4096x1024.Idx → Elt Ideal .bf16) (((cfg0.win 0).blk t).view.emb (ix2 r k)) = _
  refine congrArg (V c main_v3 : S4096x1024.Idx → Elt Ideal .bf16) (funext fun a => Fin.ext ?_)
  match a with
  | ⟨0, _⟩ => show win0_0.index t (0 : Fin 2) * 512 + 1 * r.val = r'.val; omega
  | ⟨1, _⟩ => show win0_0.index t (1 : Fin 2) * 1024 + 1 * k.val = k.val; omega

/-- The weights' block at a point is block row `i0` of the weights, all 1024 columns. -/
theorem wt_blk (c : Dev nD) (t : Fin cfg0.N) (g : Fin 1024) (k : Fin 1024) (g' : Fin 3072)
    (hg : g'.val = win0_2.index t (1 : Fin 2) * 1024 + g.val) :
    (iblk0 (F := Ideal) V c 1 t : Vec Ideal S1024x1024 .bf16) (ix2 g k)
      = (V c main_v1 : S3072x1024.Idx → Elt Ideal .bf16) (ix2 g' k) := by
  obtain ⟨e0, e1, e2, e3, e4, e5⟩ := idx_facts t
  unfold iblk0
  rw [View.read_apply]
  show (V c main_v1 : S3072x1024.Idx → Elt Ideal .bf16) (((cfg0.win 1).blk t).view.emb (ix2 g k)) = _
  refine congrArg (V c main_v1 : S3072x1024.Idx → Elt Ideal .bf16) (funext fun a => Fin.ext ?_)
  match a with
  | ⟨0, _⟩ => show win0_1.index t (0 : Fin 2) * 1024 + 1 * g.val = g'.val; omega
  | ⟨1, _⟩ => show win0_1.index t (1 : Fin 2) * 1024 + 1 * k.val = k.val; omega

/-- What a point writes back is its block of the product of the arrays the region is entered with. -/
theorem flushed_eq (c : Dev nD) (t : Fin cfg0.N) :
    (dat0 (F := Ideal) V c).flushed 2 t
      = ((cfg0.win 2).blk t).view.read (Elt Ideal) (G (V c main_v3) (V c main_v1)) := by
  show (cfg0.win 2).cut (grid0.coords t) ((dat0 (F := Ideal) V c).after 2 t) = _
  rw [after0_2]
  unfold out0_2
  rw [View.canon_unit_zero hz]
  simp only [View.ld_unit_zero (S := S512x1024) hz, View.ld_unit_zero (S := S1024x1024) hz]
  funext j
  rw [View.read_apply]
  refine point_eq (V c main_v3) (V c main_v1) (iblk0 (F := Ideal) V c 0 t) (iblk0 (F := Ideal) V c 1 t)
    (win0_2.index t (0 : Fin 2)) (win0_2.index t (1 : Fin 2))
    (fun r k r' hr => act_blk V c t r k r' hr) (fun g k g' hg => wt_blk V c t g k g' hg) j _ ?_ ?_
  · show win0_2.index t (0 : Fin 2) * 512 + 1 * (j 0).val = _; omega
  · show win0_2.index t (1 : Fin 2) * 1024 + 1 * (j 1).val = _; omega

/-- An entry of the output is in a point's block iff each coordinate is in the block's range on its axis. -/
theorem mem_blk (t : Fin cfg0.N) (i : S4096x3072.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v4).slice (win0_2.rect t)).set ↔ _
  rw [View.set_slice_whole, Rect.mem_set_unit]
  exact Iff.rfl

/-- Entry `(r, f)` lies in block `(r / 512, f / 1024)`, which some point writes back. -/
theorem cover (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The output array after the whole pipeline is the product of the arrays the region is entered with. -/
theorem arr_eq (c : Dev nD) :
    (dat0 (F := Ideal) V c).arrAt 2 cfg0.N = G (V c main_v3) (V c main_v1) :=
  (dat0 (F := Ideal) V c).arrAt_eq_of_cover 2 (G (V c main_v3) (V c main_v1)) (fun t _ => flushed_eq V c t) cover

/-- Entry by entry: row `r` of the activations against row `f` of the weights. -/
theorem arr0_prod (c : Dev nD) (r : Fin 4096) (f : Fin 3072) :
    ((dat0 (F := Ideal) V c).arrAt 2 cfg0.N : S4096x3072.Idx → Elt Ideal .bf16) (ix2 r f)
      = prodAt (V c main_v3) (V c main_v1) r f := by
  rw [arr_eq]
  rfl

/-- The same with the sum written out, the three arrays named at their literal types. -/
theorem arr0 (c : Dev nD) (r : Fin 4096) (f : Fin 3072)
    (o : S4096x3072.Idx → EReal) (a : S4096x1024.Idx → EReal) (w : S3072x1024.Idx → EReal)
    (ho : o = (dat0 (F := Ideal) V c).arrAt 2 cfg0.N) (ha : a = V c main_v3) (hw : w = V c main_v1) :
    o (ix2 r f) = ∑ k : Fin 1024, a (ix2 r k) * w (ix2 f k) := by
  subst ho ha hw
  exact arr0_prod V c r f

end

end Cert.ArrI0

end
-- ==== Proof.HostI.lean ====
/-
  The two host stretches of the kernel program, read at an index, from any starting contents. The first stretch
  changes the format of the three arguments (the identity on extended reals) and regroups the activations'
  [2, 2048, 1024] array into [4096, 1024]: row `2048 b + t` of the regrouped array is row `(b, t)` of the argument.
  The second stretch regroups the first kernel's [4096, 3072] output into [2, 2048, 3072] in the same way and writes
  nothing else. A regrouping keeps the row-major position of every element.
-/
import proofs.«143165_j48859547959308_2_alg».proof.Proof.Gen.KernelIdeal.Regions
import Idealize.ShloMosaic.Lib.StableHlo.Run
import Idealize.ShloMosaic.Lib.Pipeline.Value
import Idealize.ShloMosaic.Lib.ValueIdx

noncomputable section

namespace Cert.HostI

open Cert.KernelIdeal Cert.KernelIdeal.Gen Idealize.ShloMosaic Idealize.ShloMosaic.ValueIdx Idealize.ShloMosaic.TcCoe

variable (W : Valuation τ sig (Elt Ideal))

/-- After the first stretch the weights' bf16 copy is the format change of the argument. -/
theorem after0_v1 : @Eq (S3072x1024.Idx → EReal) (StableHlo.after (hostOps0 (F := Ideal)) W (Proc.devRef .tc main_v1))
    (truncf (F := Ideal) .bf16 (W (Proc.devRef .tc main_arg1) : S3072x1024.Idx → Elt Ideal .f32) bitsLt_bf16_f32) := by
  dsimp only [hostOps0]
  after_results

/-- After the first stretch the output weights' bf16 copy is the format change of the argument. -/
theorem after0_v2 : @Eq (S1024x1024.Idx → EReal) (StableHlo.after (hostOps0 (F := Ideal)) W (Proc.devRef .tc main_v2))
    (truncf (F := Ideal) .bf16 (W (Proc.devRef .tc main_arg2) : S1024x1024.Idx → Elt Ideal .f32) bitsLt_bf16_f32) := by
  dsimp only [hostOps0]
  after_results

/-- After the first stretch the regrouped activations are the regrouping of the format change of the argument. -/
theorem after0_v3 : @Eq (S4096x1024.Idx → EReal) (StableHlo.after (hostOps0 (F := Ideal)) W (Proc.devRef .tc main_v3))
    (shapeCast S4096x1024 (truncf (F := Ideal) .bf16 (W (Proc.devRef .tc main_arg0) : S2x2048x1024.Idx → Elt Ideal .f32) bitsLt_bf16_f32)
        shapeCasts_S2x2048x1024_S4096x1024) := by
  dsimp only [hostOps0]
  after_results
  rfl

/-- After the second stretch the regrouped output is the regrouping of the first kernel's output. -/
theorem after1_v5 : @Eq (S2x2048x3072.Idx → EReal) (StableHlo.after (hostOps1 (F := Ideal)) W (Proc.devRef .tc main_v5))
    (shapeCast S2x2048x3072 (W (Proc.devRef .tc main_v4) : S4096x3072.Idx → EReal)
        shapeCasts_S4096x3072_S2x2048x3072) := by
  dsimp only [hostOps1]
  after_results
  rfl

/-- (1) The weights' bf16 copy, entry by entry, is the argument. -/
theorem host0_v1 (a1 x1 : S3072x1024.Idx → EReal)
    (ha : a1 = StableHlo.after (hostOps0 (F := Ideal)) W main_v1) (hx : x1 = W main_arg1) :
    ∀ i : S3072x1024.Idx, a1 i = x1 i := by
  subst ha hx
  intro i
  exact congrFun (after0_v1 W) i

/-- (2) The output weights' bf16 copy, entry by entry, is the argument. -/
theorem host0_v2 (a2 x2 : S1024x1024.Idx → EReal)
    (ha : a2 = StableHlo.after (hostOps0 (F := Ideal)) W main_v2) (hx : x2 = W main_arg2) :
    ∀ i : S1024x1024.Idx, a2 i = x2 i := by
  subst ha hx
  intro i
  exact congrFun (after0_v2 W) i

/-- (3) Row `2048 b + t` of the regrouped activations is row `(b, t)` of the argument. -/
theorem host0_v3 (a3 : S4096x1024.Idx → EReal) (x0 : S2x2048x1024.Idx → EReal)
    (ha : a3 = StableHlo.after (hostOps0 (F := Ideal)) W main_v3) (hx : x0 = W main_arg0) :
    ∀ (b : Fin 2) (t : Fin 2048) (k : Fin 1024),
      a3 (ix2 (⟨b.val * 2048 + t.val, by omega⟩ : Fin 4096) k) = x0 (ix3 b t k) := by
  subst ha hx
  intro b t k
  refine (congrFun (after0_v3 W) _).trans ?_
  refine (shapeCast_apply _ shapeCasts_S2x2048x1024_S4096x1024 _ (ix3 b t k) ?_).trans rfl
  rewrite [Shape.rowMajor_val_three, Shape.rowMajor_val_two]
  show (b.val * 2048 + t.val) * 1024 + k.val = (b.val * 2048 + t.val) * 1024 + k.val
  rfl

/-- (4) Row `(b, t)` of the regrouped output is row `2048 b + t` of the first kernel's output. -/
theorem host1_v5 (a5 : S2x2048x3072.Idx → EReal) (y4 : S4096x3072.Idx → EReal)
    (ha : a5 = StableHlo.after (hostOps1 (F := Ideal)) W main_v5) (hy : y4 = W main_v4) :
    ∀ (b : Fin 2) (t : Fin 2048) (g : Fin 3072),
      a5 (ix3 b t g) = y4 (ix2 (⟨b.val * 2048 + t.val, by omega⟩ : Fin 4096) g) := by
  subst ha hy
  intro b t g
  refine (congrFun (after1_v5 W) _).trans ?_
  refine shapeCast_apply _ shapeCasts_S4096x3072_S2x2048x3072 _ (ix2 (⟨b.val * 2048 + t.val, by omega⟩ : Fin 4096) g) ?_
  rewrite [Shape.rowMajor_val_two, Shape.rowMajor_val_three]
  show (b.val * 2048 + t.val) * 3072 + g.val = (b.val * 2048 + t.val) * 3072 + g.val
  rfl

/-- (5) The second stretch writes only the regrouped output: the output weights' copy is left as it was. -/
theorem host1_keep : StableHlo.after (hostOps1 (F := Ideal)) W main_v2 = W main_v2 :=
  StableHlo.after_of_writes_sub hostOps1 W hostOps1_writes (by decide)

end Cert.HostI

end
-- ==== Proof.Spec.lean ====
/-
  The function both programs compute, written once over the extended reals.

  Multi-head attention followed by a linear layer. One output row depends on ONE query row, on all the key rows and
  value rows of its batch, and on the output weights, so the specification is a function of a query row:
  for head `h` the scores are `s k = (∑ d, q (64 h + d) · K k (64 h + d)) / 8`, the weights are the softmax of the
  scores in its shifted form `exp (s k - max s) / ∑ k', exp (s k' - max s)`, column `c` of the mixed row is
  `∑ k, weight (c / 64) k · V k c`, and the result is the mixed row times the output weights transposed. Tiling the
  queries is then invisible: a block of query rows is computed row by row by the same function.
-/
import Idealize.ShloMosaic.PureOps.Ideal
import Idealize.ShloMosaic.Lib.ValueIdx

noncomputable section

namespace Cert.Attn

open Idealize.ShloMosaic Idealize.ShloMosaic.ValueIdx

/-- Column `64 h + d` of a 1024-wide row: lane `d` of head `h`. -/
def hd (h : Fin 16) (d : Fin 64) : Fin 1024 := ⟨h.val * 64 + d.val, by omega⟩

/-- The head a column belongs to. -/
def headOf (c : Fin 1024) : Fin 16 := ⟨c.val / 64, by omega⟩

theorem headOf_hd (h : Fin 16) (d : Fin 64) : headOf (hd h d) = h := by
  apply Fin.ext; show (h.val * 64 + d.val) / 64 = h.val; omega

/-- The scaled score of key row `k` for head `h`; the scale is the word of 1/8. -/
def score (q : Fin 1024 → EReal) (K : Fin 2048 → Fin 1024 → EReal) (h : Fin 16) (k : Fin 2048) : EReal :=
  (∑ d : Fin 64, q (hd h d) * K k (hd h d)) * Ideal.ofBits .f32 0x3E000000#32

/-- The largest score of head `h`, folded from -∞. -/
def top (q : Fin 1024 → EReal) (K : Fin 2048 → Fin 1024 → EReal) (h : Fin 16) : EReal :=
  (Finset.univ : Finset (Fin 2048)).fold max ⊥ (fun k => score q K h k)

/-- The shifted exponential of a score. -/
def expo (q : Fin 1024 → EReal) (K : Fin 2048 → Fin 1024 → EReal) (h : Fin 16) (k : Fin 2048) : EReal :=
  Ideal.exp (score q K h k - top q K h)

/-- The softmax weight of key row `k` for head `h`. -/
def weight (q : Fin 1024 → EReal) (K : Fin 2048 → Fin 1024 → EReal) (h : Fin 16) (k : Fin 2048) : EReal :=
  Ideal.div (expo q K h k) (∑ k' : Fin 2048, expo q K h k')

/-- Column `c` of the mixed row: the value rows weighted by the softmax of the column's head. -/
def mixed (q : Fin 1024 → EReal) (K V : Fin 2048 → Fin 1024 → EReal) (c : Fin 1024) : EReal :=
  ∑ k : Fin 2048, weight q K (headOf c) k * V k c

/-- One output row: the mixed row times the output weights transposed. -/
def row (q : Fin 1024 → EReal) (K V : Fin 2048 → Fin 1024 → EReal) (W : Fin 1024 → Fin 1024 → EReal) (f : Fin 1024) : EReal :=
  ∑ c : Fin 1024, mixed q K V c * W f c

/-- Entry `f` of the projection of token `(b, t)`: the token's features against row `f` of the weights. -/
def proj (x : (⟨3, ![2, 2048, 1024]⟩ : Shape).Idx → EReal) (wa : (⟨2, ![3072, 1024]⟩ : Shape).Idx → EReal)
    (b : Fin 2) (t : Fin 2048) (f : Fin 3072) : EReal :=
  ∑ c : Fin 1024, x (ix3 b t c) * wa (ix2 f c)

/-- Column `c` of the query, key and value thirds of the projection. -/
def colQ (c : Fin 1024) : Fin 3072 := ⟨c.val, by omega⟩
def colK (c : Fin 1024) : Fin 3072 := ⟨1024 + c.val, by omega⟩
def colV (c : Fin 1024) : Fin 3072 := ⟨2048 + c.val, by omega⟩

/-- The whole computation at `(b, t, f)`. -/
def out (x : (⟨3, ![2, 2048, 1024]⟩ : Shape).Idx → EReal) (wa : (⟨2, ![3072, 1024]⟩ : Shape).Idx → EReal)
    (wo : (⟨2, ![1024, 1024]⟩ : Shape).Idx → EReal) (b : Fin 2) (t : Fin 2048) (f : Fin 1024) : EReal :=
  row (fun c => proj x wa b t (colQ c)) (fun k c => proj x wa b k (colK c)) (fun k c => proj x wa b k (colV c))
    (fun g c => wo (ix2 g c)) f

end Cert.Attn

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibAxisReduce.lean ====
/-
  Reductions over ONE axis of a rank-2 or rank-3 array of extended reals, read at coordinates, generic in the extents:
  the sum over the last or the middle axis of a rank-3 array, the sum over the second axis of a rank-2 array, and the
  maximum over the second axis of a rank-2 array as the fold of `max` from `-∞`. Each is the library's one-axis
  reading with the reduced index written by coordinates: the reduced index of an axis-`a` reduction with `k` put back
  has `k` at axis `a` and the kept coordinates in order around it. The word `0xFF800000` is `-∞`, the bottom of the
  extended reals.
-/
import Idealize.ShloMosaic.PureOps.Ideal.Laws
import Idealize.ShloMosaic.PureOps.Reduce
import Idealize.ShloMosaic.Lib.ValueIdx
import Idealize.ShloMosaic.Lib.Pipeline.Value

noncomputable section

namespace Cert.LibAxisReduce

open Idealize.ShloMosaic Idealize.ShloMosaic.ValueIdx

/-! ## The reduced index with the reduced coordinate put back -/

/-- Reducing the last axis of an `[a, b, n]` array: the reduced index `(p, l)` with `k` put back is `(p, l, k)`. -/
theorem lift_last {a b n : ℕ} (h : (⟨3, ![a, b, n]⟩ : Shape).Reduces [2] ⟨2, ![a, b]⟩) (p : Fin a) (l : Fin b)
    (k : Fin ((⟨3, ![a, b, n]⟩ : Shape).size 2)) : h.lift (ix2 p l) k = ix3 p l (⟨k.val, k.isLt⟩ : Fin n) := by
  funext c; apply Fin.ext
  fin_cases c <;> rfl

/-- Reducing the second axis of an `[a, n]` array: the reduced index `p` with `k` put back is `(p, k)`. -/
theorem lift_row {a n : ℕ} (h : (⟨2, ![a, n]⟩ : Shape).Reduces [1] ⟨1, ![a]⟩) (p : Fin a)
    (k : Fin ((⟨2, ![a, n]⟩ : Shape).size 1)) : h.lift (ix1 p) k = ix2 p (⟨k.val, k.isLt⟩ : Fin n) := by
  funext c; apply Fin.ext
  fin_cases c <;> rfl

/-- Reducing the middle axis of an `[a, n, c]` array: the reduced index `(p, d)` with `k` put back is `(p, k, d)`. -/
theorem lift_mid {a n c : ℕ} (h : (⟨3, ![a, n, c]⟩ : Shape).Reduces [1] ⟨2, ![a, c]⟩) (p : Fin a) (d : Fin c)
    (k : Fin ((⟨3, ![a, n, c]⟩ : Shape).size 1)) : h.lift (ix2 p d) k = ix3 p (⟨k.val, k.isLt⟩ : Fin n) d := by
  funext e; apply Fin.ext
  fin_cases e <;> rfl

/-! ## Sums and a maximum over one axis -/

/-- The word of `-∞` is the bottom of the extended reals. -/
theorem ofBits_neg_inf : Ideal.ofBits .f32 0xFF800000#32 = (⊥ : EReal) := by simp [Ideal.ofBits, Ideal.ieee]

/-- A sum over the last axis of a rank-3 array, at `(p, l)`. -/
theorem sum_last {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (p : Fin a) (l : Fin b) :
    multiReduction .add [2] ⟨2, ![a, b]⟩ src 0x00000000#32 h hφ hacc (ix2 p l) = ∑ k : Fin n, src (ix3 p l k) := by
  refine (Ideal.multiReduction_add_single src 0x00000000#32 h hφ hacc (ix2 p l)).trans ?_
  exact Finset.sum_congr rfl fun k _ => congrArg src (lift_last h p l k)

/-- A sum over the second axis of a rank-2 array, at `p`. -/
theorem sum_row {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ r : Fin n, src (ix2 p r) := by
  refine (Ideal.multiReduction_add_single src 0x00000000#32 h hφ hacc (ix1 p)).trans ?_
  exact Finset.sum_congr rfl fun k _ => congrArg src (lift_row h p k)

/-- A sum over the middle axis of a rank-3 array, at `(p, d)`. -/
theorem sum_mid {a n c : ℕ} (src : FVec Ideal ⟨3, ![a, n, c]⟩ .f32)
    (h : (⟨3, ![a, n, c]⟩ : Shape).Reduces [1] ⟨2, ![a, c]⟩) (hφ : FKind.Formats .f32)
    (hacc : (0x00000000#32 : BitVec 32) = FKind.add.neutral .f32 hφ) (p : Fin a) (d : Fin c) :
    multiReduction .add [1] ⟨2, ![a, c]⟩ src 0x00000000#32 h hφ hacc (ix2 p d) = ∑ r : Fin n, src (ix3 p r d) := by
  refine (Ideal.multiReduction_add_single src 0x00000000#32 h hφ hacc (ix2 p d)).trans ?_
  exact Finset.sum_congr rfl fun k _ => congrArg src (lift_mid h p d k)

/-- A maximum over the second axis of a rank-2 array, at `p`: the fold of `max` from `-∞` over the row. -/
theorem max_row {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin n)).fold max ⊥ (fun r => src (ix2 p r)) := by
  refine (Ideal.multiReduction_maximumf_single src 0xFF800000#32 h hφ hacc (ix1 p)).trans ?_
  have e : (src ∘ h.lift (ix1 p)) = fun r : Fin n => src (ix2 p r) :=
    funext fun r => congrArg src (lift_row h p r)
  rw [e, Ideal.ofBits_def, ofBits_neg_inf]
  rfl

end Cert.LibAxisReduce

end
-- ==== Proof.BodyValue1.lean ====
/-
  One attention head of the fused kernel read at an index.

  A head takes a 512 x 64 block of query columns and 2048 x 64 blocks of key and value columns. Its scores are the
  products of query rows with key rows, scaled by the word of 1/8; each row of scores is shifted by its maximum
  (folded from -∞), exponentiated, divided by its sum, and multiplied with the value block. Read at `(p, d)` this
  is the sum over key rows `k` of `exp (s k - max s) / Σ exp (s · - max s)` times the value at `(k, d)`, with
  `s k = (Σ_e q (p, e) · key (k, e)) · (1/8)`: the operations are exact on the extended reals and a change of
  format is the identity, so nothing else is left. The lemmas follow the stages at which the computation is cut:
  from the weights, from the exponentials, from the shifted scores, from the scores, from the three blocks.
-/
import proofs.«143165_j48859547959308_2_alg».proof.Proof.Gen.KernelIdeal.Skeleton
import proofs.«143165_j48859547959308_2_alg».proof.Proof.LibDot
import proofs.«143165_j48859547959308_2_alg».proof.Proof.LibDotT
import proofs.«143165_j48859547959308_2_alg».proof.Proof.LibColumn
import proofs.«143165_j48859547959308_2_alg».proof.Proof.LibAxisReduce

noncomputable section

open scoped BigOperators

namespace Cert.BodyValue

open Idealize.ShloMosaic Idealize.ShloMosaic.ValueIdx Cert.KernelIdeal Cert.KernelIdeal.Gen

/-- The scaled score of query row `p` against key row `k` of one head's blocks. -/
def sc (qh : FVec Ideal S512x64 .bf16) (kh : FVec Ideal S2048x64 .bf16) (p : Fin 512) (k : Fin 2048) : EReal :=
  (∑ e : Fin 64, qh (ix2 p e) * kh (ix2 k e)) * Ideal.ofBits .f32 0x3E000000#32

/-- A row's sum, given a unit column axis and spread back over the row, is that sum at every column. -/
theorem rowSum_apply (E : FVec Ideal S512x2048 .f32) (p : Fin 512) (k : Fin 2048) :
    broadcastTo S512x2048 (shapeCast S512x1 (multiReduction .add [1] S512 E 0x00000000#32 reduces_S512x2048_S512 (.inl rfl) rfl)
      shapeCasts_S512_S512x1) broadcasts_S512x1_S512x2048 (ix2 p k) = ∑ r : Fin 2048, E (ix2 p r) := by
  rw [Cert.LibColumn.broadcastTo_a1_ab_apply, Cert.LibColumn.shapeCast_a_a1_apply]
  exact Cert.LibAxisReduce.sum_row E reduces_S512x2048_S512 (.inl rfl) rfl p

/-- A row's maximum, given a unit column axis and spread back over the row, is the fold of `max` from -∞ at every column. -/
theorem rowMax_apply (S : FVec Ideal S512x2048 .f32) (p : Fin 512) (k : Fin 2048) :
    broadcastTo S512x2048 (shapeCast S512x1 (multiReduction .maximumf [1] S512 S 0xFF800000#32 reduces_S512x2048_S512 (.inl rfl) rfl)
      shapeCasts_S512_S512x1) broadcasts_S512x1_S512x2048 (ix2 p k)
      = (Finset.univ : Finset (Fin 2048)).fold max ⊥ (fun r => S (ix2 p r)) := by
  rw [Cert.LibColumn.broadcastTo_a1_ab_apply, Cert.LibColumn.shapeCast_a_a1_apply]
  exact Cert.LibAxisReduce.max_row S reduces_S512x2048_S512 (.inl rfl) rfl p

/-- From the weights: the weights' row `p` against column `d` of the values. -/
theorem pay29_apply (vh : FVec Ideal S2048x64 .bf16) (W : FVec Ideal S512x2048 .f32) (p : Fin 512) (d : Fin 64) :
    k1_pay29 (F := Ideal) vh W (ix2 p d) = ∑ k : Fin 2048, W (ix2 p k) * vh (ix2 k d) := by
  unfold k1_pay29
  exact (Ideal.matmul_constant_zero_apply (φ₁ := .bf16) (φ₂ := .bf16)
    dot_S512x2048_S2048x64_S512x64_1_0_0_1_n_n none (truncf .bf16 W bitsLt_bf16_f32) vh (ix2 p d)).trans
    (Idealize.ShloMosaic.PlainDot.sum_eq dot_S512x2048_S2048x64_S512x64_1_0_0_1_n_n rfl rfl rfl rfl rfl rfl W vh p d)

/-- From the exponentials: each divided by its row's sum, then as from the weights. -/
theorem pay14_apply (vh : FVec Ideal S2048x64 .bf16) (E : FVec Ideal S512x2048 .f32) (p : Fin 512) (d : Fin 64) :
    k1_pay14 (F := Ideal) vh E (ix2 p d)
      = ∑ k : Fin 2048, Ideal.div (E (ix2 p k)) (∑ r : Fin 2048, E (ix2 p r)) * vh (ix2 k d) := by
  refine (pay29_apply vh _ p d).trans ?_
  refine Finset.sum_congr rfl fun k _ => ?_
  rw [divf_apply, rowSum_apply]

/-- From the shifted scores: exponentiated, then as from the exponentials. -/
theorem pay1_apply (vh : FVec Ideal S2048x64 .bf16) (T : FVec Ideal S512x2048 .f32) (p : Fin 512) (d : Fin 64) :
    k1_pay1 (F := Ideal) vh T (ix2 p d)
      = ∑ k : Fin 2048, Ideal.div (Ideal.exp (T (ix2 p k))) (∑ r : Fin 2048, Ideal.exp (T (ix2 p r))) * vh (ix2 k d) :=
  pay14_apply vh (exp T) p d

/-- From the scores, whose row `p` is `s`: the row shifted by its maximum, then as from the shifted scores. -/
theorem pay19_apply (vh : FVec Ideal S2048x64 .bf16) (S : FVec Ideal S512x2048 .f32) (p : Fin 512) (d : Fin 64)
    (s : Fin 2048 → EReal) (hs : ∀ k : Fin 2048, S (ix2 p k) = s k) :
    k1_pay19 (F := Ideal) vh S (ix2 p d)
      = ∑ k : Fin 2048, Ideal.div
          (Ideal.exp (s k - (Finset.univ : Finset (Fin 2048)).fold max ⊥ s))
          (∑ r : Fin 2048, Ideal.exp (s r - (Finset.univ : Finset (Fin 2048)).fold max ⊥ s))
          * vh (ix2 k d) := by
  have hfun : (fun r : Fin 2048 => S (ix2 p r)) = s := funext hs
  refine (pay1_apply vh _ p d).trans ?_
  refine Finset.sum_congr rfl fun k _ => ?_
  refine congrArg (· * vh (ix2 k d)) ?_
  refine congrArg₂ Ideal.div ?_ (Finset.sum_congr rfl fun r _ => ?_)
  · rw [subf_apply, rowMax_apply, hs k, hfun]
  · rw [subf_apply, rowMax_apply, hs r, hfun]

/-- The scaled product of a query block with the transpose of a key block, at `(p, k)`. -/
theorem scores_apply (qh : FVec Ideal S512x64 .bf16) (kh : FVec Ideal S2048x64 .bf16) (p : Fin 512) (k : Fin 2048) :
    mulf (matmul dot_S512x64_S2048x64_S512x2048_1_1_0_0_n_n none qh kh (constant S512x2048 .f32 0x00000000#32))
      (broadcast S512x2048 (Scalar.ofBits (F := Ideal) .f32 0x3E000000#32)) (ix2 p k) = sc qh kh p k := by
  rw [mulf_apply, broadcast_apply]
  refine congrArg (· * _) ?_
  exact (Ideal.matmul_constant_zero_apply (φ₁ := .bf16) (φ₂ := .bf16)
    dot_S512x64_S2048x64_S512x2048_1_1_0_0_n_n none qh kh (ix2 p k)).trans
    (Cert.LibDotT.sum_eq dot_S512x64_S2048x64_S512x2048_1_1_0_0_n_n rfl rfl rfl rfl rfl rfl qh kh p k)

/-- One head from its three blocks, at `(p, d)`. -/
theorem pay25_apply (qh : FVec Ideal S512x64 .bf16) (kh vh : FVec Ideal S2048x64 .bf16) (p : Fin 512) (d : Fin 64) :
    k1_pay25 (F := Ideal) qh kh vh (ix2 p d)
      = ∑ k : Fin 2048, Ideal.div
          (Ideal.exp (sc qh kh p k - (Finset.univ : Finset (Fin 2048)).fold max ⊥ (sc qh kh p)))
          (∑ r : Fin 2048, Ideal.exp (sc qh kh p r - (Finset.univ : Finset (Fin 2048)).fold max ⊥ (sc qh kh p)))
          * vh (ix2 k d) :=
  pay19_apply vh
    (mulf (matmul dot_S512x64_S2048x64_S512x2048_1_1_0_0_n_n none qh kh (constant S512x2048 .f32 0x00000000#32))
      (broadcast S512x2048 (Scalar.ofBits (F := Ideal) .f32 0x3E000000#32)))
    p d (sc qh kh p) (scores_apply qh kh p)

end Cert.BodyValue

end
-- ==== Proof.BodyValue2.lean ====
/-
  The value the fused attention kernel stores, read at an index, is the specification's output row.

  The sixteen heads' outputs stand side by side in a 512 x 1024 array, head `h` in columns `[64 h, 64 h + 64)`; each
  head is computed from the columns `[64 h, 64 h + 64)` of the query, key and value blocks (the blocks with their
  leading unit axis dropped), so column `c = 64 h + d` of row `p` is the specification's mixed row at `c`: the
  softmax weights of head `h` against the value column `c`. The stored block is that array times the output
  weights transposed, with a leading unit axis: the specification's output row.
-/
import proofs.«143165_j48859547959308_2_alg».proof.Proof.BodyValue1
import proofs.«143165_j48859547959308_2_alg».proof.Proof.BodyI1
import proofs.«143165_j48859547959308_2_alg».proof.Proof.Spec
import Idealize.ShloMosaic.Lib.ValueLayout

noncomputable section

open scoped BigOperators

namespace Cert.BodyValue

open Idealize.ShloMosaic Idealize.ShloMosaic.ValueIdx Cert.KernelIdeal Cert.KernelIdeal.Gen Cert.KernelIdeal.Hand Cert.Attn

/-- A slice of columns `[o, o + w)` of a rank-2 array reads, at `(p, d)`, the array at `(p, o + d)`. -/
theorem slice_cols_apply {α : Type} {m n w : ℕ} (o : ℕ) (x : (⟨2, ![m, n]⟩ : Shape).Idx → α)
    (h : (⟨2, ![m, n]⟩ : Shape).Slices ![0, o] ⟨2, ![m, w]⟩) (p : Fin m) (d : Fin w) (ho : o + d.val < n) :
    extractStridedSlice ⟨2, ![m, w]⟩ ![0, o] x h (ix2 p d) = x (ix2 p ⟨o + d.val, ho⟩) :=
  extractStridedSlice_apply ![0, o] x h (ix2 p d) (ix2 p ⟨o + d.val, ho⟩) fun a =>
    match a with
    | ⟨0, _⟩ => by show p.val = 0 + p.val; omega
    | ⟨1, _⟩ => rfl

/-- Head `h` of rank-2 blocks: computed from the columns `[64 h, 64 h + 64)`, it is the mixed row of query row `p`
    at column `64 h + d`. -/
theorem head_mixed (v1 : FVec Ideal S512x1024 .bf16) (v3 v5 : FVec Ideal S2048x1024 .bf16) (h : Fin 16) (o : ℕ)
    (ho : o = h.val * 64) (hq : S512x1024.Slices ![0, o] S512x64) (hk : S2048x1024.Slices ![0, o] S2048x64)
    (p : Fin 512) (d : Fin 64) :
    k1_pay25 (F := Ideal) (extractStridedSlice S512x64 ![0, o] v1 hq) (extractStridedSlice S2048x64 ![0, o] v3 hk)
        (extractStridedSlice S2048x64 ![0, o] v5 hk) (ix2 p d)
      = mixed (fun c => v1 (ix2 p c)) (fun k c => v3 (ix2 k c)) (fun k c => v5 (ix2 k c)) (hd h d) := by
  subst ho
  have eq : ∀ e : Fin 64, extractStridedSlice S512x64 ![0, h.val * 64] v1 hq (ix2 p e) = v1 (ix2 p (hd h e)) :=
    fun e => slice_cols_apply (h.val * 64) v1 hq p e (hd h e).isLt
  have ek : ∀ (k : Fin 2048) (e : Fin 64), extractStridedSlice S2048x64 ![0, h.val * 64] v3 hk (ix2 k e) = v3 (ix2 k (hd h e)) :=
    fun k e => slice_cols_apply (h.val * 64) v3 hk k e (hd h e).isLt
  have ev : ∀ (k : Fin 2048) (e : Fin 64), extractStridedSlice S2048x64 ![0, h.val * 64] v5 hk (ix2 k e) = v5 (ix2 k (hd h e)) :=
    fun k e => slice_cols_apply (h.val * 64) v5 hk k e (hd h e).isLt
  have hs : sc (extractStridedSlice S512x64 ![0, h.val * 64] v1 hq) (extractStridedSlice S2048x64 ![0, h.val * 64] v3 hk) p
      = score (fun c => v1 (ix2 p c)) (fun k c => v3 (ix2 k c)) h := by
    funext k
    unfold sc score
    refine congrArg (· * _) (Finset.sum_congr rfl fun e _ => ?_)
    rw [eq e, ek k e]
  rw [pay25_apply, hs]
  unfold mixed weight expo top
  rw [headOf_hd]
  exact Finset.sum_congr rfl fun k _ => by rw [ev k d]

/-- The blocks with their leading unit axis dropped read, at `(i, c)`, the blocks at `(0, i, c)`. -/
theorem pay3_apply (v0 : Vec Ideal S1x512x1024 .bf16) (p : Fin 512) (c : Fin 1024) :
    k1_pay3 (F := Ideal) v0 (ix2 p c) = v0 (ix3 (0 : Fin 1) p c) := by
  unfold k1_pay3; exact shapeCast_1ab_ab_apply v0 _ p c

theorem pay4_apply (v2 : Vec Ideal S1x2048x1024 .bf16) (k : Fin 2048) (c : Fin 1024) :
    k1_pay4 (F := Ideal) v2 (ix2 k c) = v2 (ix3 (0 : Fin 1) k c) := by
  unfold k1_pay4; exact shapeCast_1ab_ab_apply v2 _ k c

theorem pay5_apply (v4 : Vec Ideal S1x2048x1024 .bf16) (k : Fin 2048) (c : Fin 1024) :
    k1_pay5 (F := Ideal) v4 (ix2 k c) = v4 (ix3 (0 : Fin 1) k c) := by
  unfold k1_pay5; exact shapeCast_1ab_ab_apply v4 _ k c

/-- Head `h` of the loaded blocks. -/
theorem head_blocks (v0 : Vec Ideal S1x512x1024 .bf16) (v2 v4 : Vec Ideal S1x2048x1024 .bf16) (h : Fin 16) (o : ℕ)
    (ho : o = h.val * 64) (hq : S512x1024.Slices ![0, o] S512x64) (hk : S2048x1024.Slices ![0, o] S2048x64)
    (p : Fin 512) (d : Fin 64) :
    k1_pay25 (F := Ideal) (extractStridedSlice S512x64 ![0, o] (k1_pay3 v0) hq) (extractStridedSlice S2048x64 ![0, o] (k1_pay4 v2) hk)
        (extractStridedSlice S2048x64 ![0, o] (k1_pay5 v4) hk) (ix2 p d)
      = mixed (fun c => v0 (ix3 (0 : Fin 1) p c)) (fun k c => v2 (ix3 (0 : Fin 1) k c)) (fun k c => v4 (ix3 (0 : Fin 1) k c)) (hd h d) := by
  refine (head_mixed (k1_pay3 v0) (k1_pay4 v2) (k1_pay5 v4) h o ho hq hk p d).trans ?_
  have e3 : (fun c => k1_pay3 (F := Ideal) v0 (ix2 p c)) = fun c => v0 (ix3 (0 : Fin 1) p c) := funext fun c => pay3_apply v0 p c
  have e4 : (fun k c => k1_pay4 (F := Ideal) v2 (ix2 k c)) = fun k c => v2 (ix3 (0 : Fin 1) k c) :=
    funext fun k => funext fun c => pay4_apply v2 k c
  have e5 : (fun k c => k1_pay5 (F := Ideal) v4 (ix2 k c)) = fun k c => v4 (ix3 (0 : Fin 1) k c) :=
    funext fun k => funext fun c => pay5_apply v4 k c
  rw [e3, e4, e5]

/-- Head 0: columns [0, 64). -/
theorem piece0_apply (v0 : Vec Ideal S1x512x1024 .bf16) (v2 v4 : Vec Ideal S1x2048x1024 .bf16) (p : Fin 512) (d : Fin 64) :
    (k1_pay6 v0 v2 v4 : FVec Ideal S512x64 .f32) (ix2 p d)
      = mixed (fun c => v0 (ix3 (0 : Fin 1) p c)) (fun k c => v2 (ix3 (0 : Fin 1) k c)) (fun k c => v4 (ix3 (0 : Fin 1) k c)) (hd (0 : Fin 16) d) :=
  head_blocks v0 v2 v4 (0 : Fin 16) 0 rfl slices_S512x1024_o0_0_S512x64 slices_S2048x1024_o0_0_S2048x64 p d

/-- Head 1: columns [64, 128). -/
theorem piece1_apply (v0 : Vec Ideal S1x512x1024 .bf16) (v2 v4 : Vec Ideal S1x2048x1024 .bf16) (p : Fin 512) (d : Fin 64) :
    (k1_pay9 (k1_pay7 v4) (k1_pay8 v0 v2) (constant S512x64 .f32 0x00000000#32) : FVec Ideal S512x64 .f32) (ix2 p d)
      = mixed (fun c => v0 (ix3 (0 : Fin 1) p c)) (fun k c => v2 (ix3 (0 : Fin 1) k c)) (fun k c => v4 (ix3 (0 : Fin 1) k c)) (hd (1 : Fin 16) d) :=
  head_blocks v0 v2 v4 (1 : Fin 16) 64 rfl slices_S512x1024_o0_64_S512x64 slices_S2048x1024_o0_64_S2048x64 p d

/-- Head 2: columns [128, 192). -/
theorem piece2_apply (v0 : Vec Ideal S1x512x1024 .bf16) (v2 v4 : Vec Ideal S1x2048x1024 .bf16) (p : Fin 512) (d : Fin 64) :
    (k1_pay10 (k1_pay3 v0) (k1_pay4 v2) (k1_pay5 v4) : FVec Ideal S512x64 .f32) (ix2 p d)
      = mixed (fun c => v0 (ix3 (0 : Fin 1) p c)) (fun k c => v2 (ix3 (0 : Fin 1) k c)) (fun k c => v4 (ix3 (0 : Fin 1) k c)) (hd (2 : Fin 16) d) :=
  head_blocks v0 v2 v4 (2 : Fin 16) 128 rfl slices_S512x1024_o0_128_S512x64 slices_S2048x1024_o0_128_S2048x64 p d

/-- Head 3: columns [192, 256). -/
theorem piece3_apply (v0 : Vec Ideal S1x512x1024 .bf16) (v2 v4 : Vec Ideal S1x2048x1024 .bf16) (p : Fin 512) (d : Fin 64) :
    (k1_pay11 (k1_pay3 v0) (k1_pay4 v2) (k1_pay5 v4) : FVec Ideal S512x64 .f32) (ix2 p d)
      = mixed (fun c => v0 (ix3 (0 : Fin 1) p c)) (fun k c => v2 (ix3 (0 : Fin 1) k c)) (fun k c => v4 (ix3 (0 : Fin 1) k c)) (hd (3 : Fin 16) d) :=
  head_blocks v0 v2 v4 (3 : Fin 16) 192 rfl slices_S512x1024_o0_192_S512x64 slices_S2048x1024_o0_192_S2048x64 p d

/-- Head 4: columns [256, 320). -/
theorem piece4_apply (v0 : Vec Ideal S1x512x1024 .bf16) (v2 v4 : Vec Ideal S1x2048x1024 .bf16) (p : Fin 512) (d : Fin 64) :
    (k1_pay14 (k1_pay12 (k1_pay5 v4)) (k1_pay13 (k1_pay3 v0) (k1_pay4 v2)) : FVec Ideal S512x64 .f32) (ix2 p d)
      = mixed (fun c => v0 (ix3 (0 : Fin 1) p c)) (fun k c => v2 (ix3 (0 : Fin 1) k c)) (fun k c => v4 (ix3 (0 : Fin 1) k c)) (hd (4 : Fin 16) d) :=
  head_blocks v0 v2 v4 (4 : Fin 16) 256 rfl slices_S512x1024_o0_256_S512x64 slices_S2048x1024_o0_256_S2048x64 p d

/-- Head 5: columns [320, 384). -/
theorem piece5_apply (v0 : Vec Ideal S1x512x1024 .bf16) (v2 v4 : Vec Ideal S1x2048x1024 .bf16) (p : Fin 512) (d : Fin 64) :
    (k1_pay15 (k1_pay3 v0) (k1_pay4 v2) (k1_pay5 v4) : FVec Ideal S512x64 .f32) (ix2 p d)
      = mixed (fun c => v0 (ix3 (0 : Fin 1) p c)) (fun k c => v2 (ix3 (0 : Fin 1) k c)) (fun k c => v4 (ix3 (0 : Fin 1) k c)) (hd (5 : Fin 16) d) :=
  head_blocks v0 v2 v4 (5 : Fin 16) 320 rfl slices_S512x1024_o0_320_S512x64 slices_S2048x1024_o0_320_S2048x64 p d

/-- Head 6: columns [384, 448). -/
theorem piece6_apply (v0 : Vec Ideal S1x512x1024 .bf16) (v2 v4 : Vec Ideal S1x2048x1024 .bf16) (p : Fin 512) (d : Fin 64) :
    (k1_pay16 (k1_pay3 v0) (k1_pay4 v2) (k1_pay5 v4) : FVec Ideal S512x64 .f32) (ix2 p d)
      = mixed (fun c => v0 (ix3 (0 : Fin 1) p c)) (fun k c => v2 (ix3 (0 : Fin 1) k c)) (fun k c => v4 (ix3 (0 : Fin 1) k c)) (hd (6 : Fin 16) d) :=
  head_blocks v0 v2 v4 (6 : Fin 16) 384 rfl slices_S512x1024_o0_384_S512x64 slices_S2048x1024_o0_384_S2048x64 p d

/-- Head 7: columns [448, 512). -/
theorem piece7_apply (v0 : Vec Ideal S1x512x1024 .bf16) (v2 v4 : Vec Ideal S1x2048x1024 .bf16) (p : Fin 512) (d : Fin 64) :
    (k1_pay19 (k1_pay17 (k1_pay5 v4)) (k1_pay18 (k1_pay3 v0) (k1_pay4 v2)) : FVec Ideal S512x64 .f32) (ix2 p d)
      = mixed (fun c => v0 (ix3 (0 : Fin 1) p c)) (fun k c => v2 (ix3 (0 : Fin 1) k c)) (fun k c => v4 (ix3 (0 : Fin 1) k c)) (hd (7 : Fin 16) d) :=
  head_blocks v0 v2 v4 (7 : Fin 16) 448 rfl slices_S512x1024_o0_448_S512x64 slices_S2048x1024_o0_448_S2048x64 p d

/-- Head 8: columns [512, 576). -/
theorem piece8_apply (v0 : Vec Ideal S1x512x1024 .bf16) (v2 v4 : Vec Ideal S1x2048x1024 .bf16) (p : Fin 512) (d : Fin 64) :
    (k1_pay20 (k1_pay3 v0) (k1_pay4 v2) (k1_pay5 v4) : FVec Ideal S512x64 .f32) (ix2 p d)
      = mixed (fun c => v0 (ix3 (0 : Fin 1) p c)) (fun k c => v2 (ix3 (0 : Fin 1) k c)) (fun k c => v4 (ix3 (0 : Fin 1) k c)) (hd (8 : Fin 16) d) :=
  head_blocks v0 v2 v4 (8 : Fin 16) 512 rfl slices_S512x1024_o0_512_S512x64 slices_S2048x1024_o0_512_S2048x64 p d

/-- Head 9: columns [576, 640). -/
theorem piece9_apply (v0 : Vec Ideal S1x512x1024 .bf16) (v2 v4 : Vec Ideal S1x2048x1024 .bf16) (p : Fin 512) (d : Fin 64) :
    (k1_pay21 (k1_pay3 v0) (k1_pay4 v2) (k1_pay5 v4) : FVec Ideal S512x64 .f32) (ix2 p d)
      = mixed (fun c => v0 (ix3 (0 : Fin 1) p c)) (fun k c => v2 (ix3 (0 : Fin 1) k c)) (fun k c => v4 (ix3 (0 : Fin 1) k c)) (hd (9 : Fin 16) d) :=
  head_blocks v0 v2 v4 (9 : Fin 16) 576 rfl slices_S512x1024_o0_576_S512x64 slices_S2048x1024_o0_576_S2048x64 p d

/-- Head 10: columns [640, 704). -/
theorem piece10_apply (v0 : Vec Ideal S1x512x1024 .bf16) (v2 v4 : Vec Ideal S1x2048x1024 .bf16) (p : Fin 512) (d : Fin 64) :
    (k1_pay25 (k1_pay22 (k1_pay3 v0)) (k1_pay23 (k1_pay4 v2)) (k1_pay24 (k1_pay5 v4)) : FVec Ideal S512x64 .f32) (ix2 p d)
      = mixed (fun c => v0 (ix3 (0 : Fin 1) p c)) (fun k c => v2 (ix3 (0 : Fin 1) k c)) (fun k c => v4 (ix3 (0 : Fin 1) k c)) (hd (10 : Fin 16) d) :=
  head_blocks v0 v2 v4 (10 : Fin 16) 640 rfl slices_S512x1024_o0_640_S512x64 slices_S2048x1024_o0_640_S2048x64 p d

/-- Head 11: columns [704, 768). -/
theorem piece11_apply (v0 : Vec Ideal S1x512x1024 .bf16) (v2 v4 : Vec Ideal S1x2048x1024 .bf16) (p : Fin 512) (d : Fin 64) :
    (k1_pay26 (k1_pay3 v0) (k1_pay4 v2) (k1_pay5 v4) : FVec Ideal S512x64 .f32) (ix2 p d)
      = mixed (fun c => v0 (ix3 (0 : Fin 1) p c)) (fun k c => v2 (ix3 (0 : Fin 1) k c)) (fun k c => v4 (ix3 (0 : Fin 1) k c)) (hd (11 : Fin 16) d) :=
  head_blocks v0 v2 v4 (11 : Fin 16) 704 rfl slices_S512x1024_o0_704_S512x64 slices_S2048x1024_o0_704_S2048x64 p d

/-- Head 12: columns [768, 832). -/
theorem piece12_apply (v0 : Vec Ideal S1x512x1024 .bf16) (v2 v4 : Vec Ideal S1x2048x1024 .bf16) (p : Fin 512) (d : Fin 64) :
    (k1_pay29 (k1_pay27 (k1_pay5 v4)) (k1_pay28 (k1_pay3 v0) (k1_pay4 v2)) : FVec Ideal S512x64 .f32) (ix2 p d)
      = mixed (fun c => v0 (ix3 (0 : Fin 1) p c)) (fun k c => v2 (ix3 (0 : Fin 1) k c)) (fun k c => v4 (ix3 (0 : Fin 1) k c)) (hd (12 : Fin 16) d) :=
  head_blocks v0 v2 v4 (12 : Fin 16) 768 rfl slices_S512x1024_o0_768_S512x64 slices_S2048x1024_o0_768_S2048x64 p d

/-- Head 13: columns [832, 896). -/
theorem piece13_apply (v0 : Vec Ideal S1x512x1024 .bf16) (v2 v4 : Vec Ideal S1x2048x1024 .bf16) (p : Fin 512) (d : Fin 64) :
    (k1_pay30 (k1_pay3 v0) (k1_pay4 v2) (k1_pay5 v4) : FVec Ideal S512x64 .f32) (ix2 p d)
      = mixed (fun c => v0 (ix3 (0 : Fin 1) p c)) (fun k c => v2 (ix3 (0 : Fin 1) k c)) (fun k c => v4 (ix3 (0 : Fin 1) k c)) (hd (13 : Fin 16) d) :=
  head_blocks v0 v2 v4 (13 : Fin 16) 832 rfl slices_S512x1024_o0_832_S512x64 slices_S2048x1024_o0_832_S2048x64 p d

/-- Head 14: columns [896, 960). -/
theorem piece14_apply (v0 : Vec Ideal S1x512x1024 .bf16) (v2 v4 : Vec Ideal S1x2048x1024 .bf16) (p : Fin 512) (d : Fin 64) :
    (k1_pay31 (k1_pay3 v0) (k1_pay4 v2) (k1_pay5 v4) : FVec Ideal S512x64 .f32) (ix2 p d)
      = mixed (fun c => v0 (ix3 (0 : Fin 1) p c)) (fun k c => v2 (ix3 (0 : Fin 1) k c)) (fun k c => v4 (ix3 (0 : Fin 1) k c)) (hd (14 : Fin 16) d) :=
  head_blocks v0 v2 v4 (14 : Fin 16) 896 rfl slices_S512x1024_o0_896_S512x64 slices_S2048x1024_o0_896_S2048x64 p d

/-- Head 15: columns [960, 1024). -/
theorem piece15_apply (v0 : Vec Ideal S1x512x1024 .bf16) (v2 v4 : Vec Ideal S1x2048x1024 .bf16) (p : Fin 512) (d : Fin 64) :
    (k1_pay1 (k1_pay32 (k1_pay5 v4)) (k1_pay33 (k1_pay3 v0) (k1_pay4 v2)) : FVec Ideal S512x64 .f32) (ix2 p d)
      = mixed (fun c => v0 (ix3 (0 : Fin 1) p c)) (fun k c => v2 (ix3 (0 : Fin 1) k c)) (fun k c => v4 (ix3 (0 : Fin 1) k c)) (hd (15 : Fin 16) d) :=
  head_blocks v0 v2 v4 (15 : Fin 16) 960 rfl slices_S512x1024_o0_960_S512x64 slices_S2048x1024_o0_960_S2048x64 p d

/-- Sixteen pieces of one shape, 64 columns each: the extents of the first `k` of them add up to `64 k`. -/
theorem pre_sum {α : Type} (xs : List ((s : Shape) × (s.Idx → α))) (hsh : xs.map (·.1) = List.replicate 16 S512x64)
    (k : ℕ) (hk : k < 16) :
    (((xs.take k).map (·.1)).map fun s : Shape =>
      if h : s.rank = S512x1024.rank then s.size ((1 : Fin S512x1024.rank).cast h.symm) else 0).sum = k * 64 := by
  rw [List.map_take, hsh, List.take_replicate, List.map_replicate, List.sum_replicate, Nat.min_eq_left (Nat.le_of_lt hk)]
  rfl

/-- There are sixteen of them. -/
theorem len16 {α : Type} (xs : List ((s : Shape) × (s.Idx → α))) (hsh : xs.map (·.1) = List.replicate 16 S512x64) :
    xs.length = 16 := by
  have := congrArg List.length hsh
  rwa [List.length_map, List.length_replicate] at this

/-- Sixteen pieces of 64 columns side by side: piece number `k` read at `(p, d)` is the whole at `(p, 64 k + d)`. -/
theorem concat_cols_apply {α : Type} (xs : List ((s : Shape) × (s.Idx → α)))
    (hcat : Shape.Concatenates (xs.map (·.1)) S512x1024 (1 : Fin S512x1024.rank))
    (hsh : xs.map (·.1) = List.replicate 16 S512x64) (k : ℕ) (hk : k < 16)
    (x₁ : S512x64.Idx → α) (hxk : xs[k]'(by rw [len16 xs hsh]; exact hk) = ⟨S512x64, x₁⟩)
    (h : Fin 16) (hh : h.val = k) (p : Fin 512) (d : Fin 64) :
    concatenate S512x1024 (1 : Fin S512x1024.rank) xs hcat (ix2 p (hd h d)) = x₁ (ix2 p d) :=
  concatenate_apply_piece (1 : Fin S512x1024.rank) xs hcat (ix2 p (hd h d)) k (by rw [len16 xs hsh]; exact hk) S512x64 x₁ hxk rfl
    (k * 64) (pre_sum xs hsh k hk) (ix2 p d)
    (fun b hb => match b, hb with
      | ⟨0, _⟩, _ => rfl
      | ⟨1, _⟩, hb => absurd rfl hb)
    (by show k * 64 + d.val = h.val * 64 + d.val; rw [hh])

/-- The heads side by side, at column `64 h + d` of row `p`: the mixed row there. -/
theorem heads1_hd_apply (v0 : Vec Ideal S1x512x1024 .bf16) (v2 v4 : Vec Ideal S1x2048x1024 .bf16) (h : Fin 16) (p : Fin 512) (d : Fin 64) :
    heads1 (F := Ideal) v0 v2 v4 (ix2 p (hd h d)) = mixed (fun c => v0 (ix3 (0 : Fin 1) p c)) (fun k c => v2 (ix3 (0 : Fin 1) k c)) (fun k c => v4 (ix3 (0 : Fin 1) k c)) (hd h d) := by
  unfold heads1
  fin_cases h
  · exact (concat_cols_apply _ _ rfl 0 (by omega) _ rfl (0 : Fin 16) rfl p d).trans (piece0_apply v0 v2 v4 p d)
  · exact (concat_cols_apply _ _ rfl 1 (by omega) _ rfl (1 : Fin 16) rfl p d).trans (piece1_apply v0 v2 v4 p d)
  · exact (concat_cols_apply _ _ rfl 2 (by omega) _ rfl (2 : Fin 16) rfl p d).trans (piece2_apply v0 v2 v4 p d)
  · exact (concat_cols_apply _ _ rfl 3 (by omega) _ rfl (3 : Fin 16) rfl p d).trans (piece3_apply v0 v2 v4 p d)
  · exact (concat_cols_apply _ _ rfl 4 (by omega) _ rfl (4 : Fin 16) rfl p d).trans (piece4_apply v0 v2 v4 p d)
  · exact (concat_cols_apply _ _ rfl 5 (by omega) _ rfl (5 : Fin 16) rfl p d).trans (piece5_apply v0 v2 v4 p d)
  · exact (concat_cols_apply _ _ rfl 6 (by omega) _ rfl (6 : Fin 16) rfl p d).trans (piece6_apply v0 v2 v4 p d)
  · exact (concat_cols_apply _ _ rfl 7 (by omega) _ rfl (7 : Fin 16) rfl p d).trans (piece7_apply v0 v2 v4 p d)
  · exact (concat_cols_apply _ _ rfl 8 (by omega) _ rfl (8 : Fin 16) rfl p d).trans (piece8_apply v0 v2 v4 p d)
  · exact (concat_cols_apply _ _ rfl 9 (by omega) _ rfl (9 : Fin 16) rfl p d).trans (piece9_apply v0 v2 v4 p d)
  · exact (concat_cols_apply _ _ rfl 10 (by omega) _ rfl (10 : Fin 16) rfl p d).trans (piece10_apply v0 v2 v4 p d)
  · exact (concat_cols_apply _ _ rfl 11 (by omega) _ rfl (11 : Fin 16) rfl p d).trans (piece11_apply v0 v2 v4 p d)
  · exact (concat_cols_apply _ _ rfl 12 (by omega) _ rfl (12 : Fin 16) rfl p d).trans (piece12_apply v0 v2 v4 p d)
  · exact (concat_cols_apply _ _ rfl 13 (by omega) _ rfl (13 : Fin 16) rfl p d).trans (piece13_apply v0 v2 v4 p d)
  · exact (concat_cols_apply _ _ rfl 14 (by omega) _ rfl (14 : Fin 16) rfl p d).trans (piece14_apply v0 v2 v4 p d)
  · exact (concat_cols_apply _ _ rfl 15 (by omega) _ rfl (15 : Fin 16) rfl p d).trans (piece15_apply v0 v2 v4 p d)

/-- The heads side by side, at any column of row `p`. -/
theorem heads1_apply (v0 : Vec Ideal S1x512x1024 .bf16) (v2 v4 : Vec Ideal S1x2048x1024 .bf16) (p : Fin 512) (c : Fin 1024) :
    heads1 (F := Ideal) v0 v2 v4 (ix2 p c) = mixed (fun c => v0 (ix3 (0 : Fin 1) p c)) (fun k c => v2 (ix3 (0 : Fin 1) k c)) (fun k c => v4 (ix3 (0 : Fin 1) k c)) c := by
  obtain ⟨h, d, rfl⟩ : ∃ (h : Fin 16) (d : Fin 64), c = hd h d :=
    ⟨headOf c, ⟨c.val % 64, Nat.mod_lt _ (by decide)⟩, Fin.ext (by show c.val = c.val / 64 * 64 + c.val % 64; omega)⟩
  exact heads1_hd_apply v0 v2 v4 h p d

/-- The stored block at `(0, p, f)` is entry `f` of the specification's output row for query row `p`. -/
theorem stored_apply (v0 : Vec Ideal S1x512x1024 .bf16) (v2 v4 : Vec Ideal S1x2048x1024 .bf16) (v279 : Vec Ideal S1024x1024 .bf16) (p : Fin 512) (f : Fin 1024) :
    stored1 (F := Ideal) v0 v2 v4 v279 (ix3 (0 : Fin 1) p f)
      = row (fun c => v0 (ix3 (0 : Fin 1) p c)) (fun k c => v2 (ix3 (0 : Fin 1) k c)) (fun k c => v4 (ix3 (0 : Fin 1) k c)) (fun g c => v279 (ix2 g c)) f := by
  unfold stored1 k1_pay2
  rw [shapeCast_self]
  refine (shapeCast_ab_1ab_apply _ _ (0 : Fin 1) p f).trans ?_
  refine ((Ideal.matmul_constant_zero_apply (φ₁ := .bf16) (φ₂ := .bf16)
    dot_S512x1024_S1024x1024_S512x1024_1_1_0_0_n_n none (truncf .bf16 (heads1 v0 v2 v4) bitsLt_bf16_f32) v279 (ix2 p f)).trans
    (Cert.LibDotT.sum_eq dot_S512x1024_S1024x1024_S512x1024_1_1_0_0_n_n rfl rfl rfl rfl rfl rfl (heads1 v0 v2 v4) v279 p f)).trans ?_
  unfold row
  exact Finset.sum_congr rfl fun c _ => by rw [heads1_apply v0 v2 v4 p c]

end Cert.BodyValue

end
-- ==== Proof.ArrI1.lean ====
/-
  What the attention kernel's pipeline leaves in the output array, for any contents of the arrays it is entered with.

  The grid has a point per batch and tile of 512 query rows. At a point the query window holds the tile's rows of the
  first 1024 columns of the projection array, the key and value windows all 2048 rows of the batch of the second and
  third 1024 columns, and the weight window the whole weight array; the body stores the specification's output rows
  of the tile's tokens, which depend on nothing else: an output row looks at its own query row, at every key and
  value row of its batch and at the weights. So the block each point writes back is a block of ONE function of the
  entry arrays, the output blocks tile the output array, and the array ends holding that function: at `(b, t, f)`
  entry `f` of the output row of token `(b, t)`.
-/
import proofs.«143165_j48859547959308_2_alg».proof.Proof.FrameI1
import proofs.«143165_j48859547959308_2_alg».proof.Proof.BodyValue2
import proofs.«143165_j48859547959308_2_alg».proof.Proof.Spec
import Idealize.ShloMosaic.Lib.Pipeline.Value

noncomputable section

open scoped BigOperators

namespace Cert.ArrI1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Attn

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

theorem idx_facts : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = 0 ∧ win1_1.index t (2 : Fin 3) = 1
    ∧ win1_2.index t (0 : Fin 3) = win1_4.index t (0 : Fin 3) ∧ win1_2.index t (1 : Fin 3) = 0 ∧ win1_2.index t (2 : Fin 3) = 2
    ∧ win1_3.index t (0 : Fin 2) = 0 ∧ win1_3.index t (1 : Fin 2) = 0
    ∧ win1_4.index t (0 : Fin 3) ≤ 1 ∧ win1_4.index t (1 : Fin 3) ≤ 3 ∧ win1_4.index t (2 : Fin 3) = 0 :=
  (by decide +kernel : ∀ t : Fin grid1.N, _)

theorem idx_onto : ∀ (q0 : Fin 2) (q1 : Fin 4), ∃ t : Fin cfg1.N, win1_4.index t = ![q0.val, q1.val, 0] :=
  (by decide +kernel : ∀ (q0 : Fin 2) (q1 : Fin 4), ∃ t : Fin grid1.N, win1_4.index t = ![q0.val, q1.val, 0])

/-- The query window's block at point `t`, read off the projection array. -/
theorem iblk0_apply (c : Dev nD) (t : Fin cfg1.N) (x : S1x512x1024.Idx) (k : S2x2048x3072.Idx)
    (hk0 : (k 0).val = win1_0.index t (0 : Fin 3) * 1 + (x 0).val)
    (hk1 : (k 1).val = win1_0.index t (1 : Fin 3) * 512 + (x 1).val)
    (hk2 : (k 2).val = win1_0.index t (2 : Fin 3) * 1024 + (x 2).val) :
    (iblk1 V c 0 t : Vec Ideal S1x512x1024 .bf16) x = (V c main_v5 : S2x2048x3072.Idx → Elt Ideal .bf16) k := by
  unfold iblk1
  rw [View.read_apply]
  show V c main_v5 _ = V c main_v5 _
  congr 1
  funext a
  apply Fin.ext
  match a with
  | ⟨0, _⟩ => show win1_0.index t (0 : Fin 3) * 1 + 1 * (x 0).val = (k 0).val; omega
  | ⟨1, _⟩ => show win1_0.index t (1 : Fin 3) * 512 + 1 * (x 1).val = (k 1).val; omega
  | ⟨2, _⟩ => show win1_0.index t (2 : Fin 3) * 1024 + 1 * (x 2).val = (k 2).val; omega

/-- The key window's block at point `t`, read off the projection array. -/
theorem iblk1_apply (c : Dev nD) (t : Fin cfg1.N) (x : S1x2048x1024.Idx) (k : S2x2048x3072.Idx)
    (hk0 : (k 0).val = win1_1.index t (0 : Fin 3) * 1 + (x 0).val)
    (hk1 : (k 1).val = win1_1.index t (1 : Fin 3) * 2048 + (x 1).val)
    (hk2 : (k 2).val = win1_1.index t (2 : Fin 3) * 1024 + (x 2).val) :
    (iblk1 V c 1 t : Vec Ideal S1x2048x1024 .bf16) x = (V c main_v5 : S2x2048x3072.Idx → Elt Ideal .bf16) k := by
  unfold iblk1
  rw [View.read_apply]
  show V c main_v5 _ = V c main_v5 _
  congr 1
  funext a
  apply Fin.ext
  match a with
  | ⟨0, _⟩ => show win1_1.index t (0 : Fin 3) * 1 + 1 * (x 0).val = (k 0).val; omega
  | ⟨1, _⟩ => show win1_1.index t (1 : Fin 3) * 2048 + 1 * (x 1).val = (k 1).val; omega
  | ⟨2, _⟩ => show win1_1.index t (2 : Fin 3) * 1024 + 1 * (x 2).val = (k 2).val; omega

/-- The value window's block at point `t`, read off the projection array. -/
theorem iblk2_apply (c : Dev nD) (t : Fin cfg1.N) (x : S1x2048x1024.Idx) (k : S2x2048x3072.Idx)
    (hk0 : (k 0).val = win1_2.index t (0 : Fin 3) * 1 + (x 0).val)
    (hk1 : (k 1).val = win1_2.index t (1 : Fin 3) * 2048 + (x 1).val)
    (hk2 : (k 2).val = win1_2.index t (2 : Fin 3) * 1024 + (x 2).val) :
    (iblk1 V c 2 t : Vec Ideal S1x2048x1024 .bf16) x = (V c main_v5 : S2x2048x3072.Idx → Elt Ideal .bf16) k := by
  unfold iblk1
  rw [View.read_apply]
  show V c main_v5 _ = V c main_v5 _
  congr 1
  funext a
  apply Fin.ext
  match a with
  | ⟨0, _⟩ => show win1_2.index t (0 : Fin 3) * 1 + 1 * (x 0).val = (k 0).val; omega
  | ⟨1, _⟩ => show win1_2.index t (1 : Fin 3) * 2048 + 1 * (x 1).val = (k 1).val; omega
  | ⟨2, _⟩ => show win1_2.index t (2 : Fin 3) * 1024 + 1 * (x 2).val = (k 2).val; omega

/-- The weight window's block at point `t`, read off the weight array. -/
theorem iblk3_apply (c : Dev nD) (t : Fin cfg1.N) (x : S1024x1024.Idx) (k : S1024x1024.Idx)
    (hk0 : (k 0).val = win1_3.index t (0 : Fin 2) * 1024 + (x 0).val)
    (hk1 : (k 1).val = win1_3.index t (1 : Fin 2) * 1024 + (x 1).val) :
    (iblk1 V c 3 t : Vec Ideal S1024x1024 .bf16) x = (V c main_v2 : S1024x1024.Idx → Elt Ideal .bf16) k := by
  unfold iblk1
  rw [View.read_apply]
  show V c main_v2 _ = V c main_v2 _
  congr 1
  funext a
  apply Fin.ext
  match a with
  | ⟨0, _⟩ => show win1_3.index t (0 : Fin 2) * 1024 + 1 * (x 0).val = (k 0).val; omega
  | ⟨1, _⟩ => show win1_3.index t (1 : Fin 2) * 1024 + 1 * (x 1).val = (k 1).val; omega

/-- The specification's output row for batch `b` and token `r`, over a projection array and a weight array. -/
def rowOf (A5 : S2x2048x3072.Idx → Elt Ideal .bf16) (A2 : S1024x1024.Idx → Elt Ideal .bf16) (b : Fin 2) (r : Fin 2048)
    (f : Fin 1024) : EReal :=
  row (fun cc => A5 (ix3 b r (colQ cc))) (fun k cc => A5 (ix3 b k (colK cc))) (fun k cc => A5 (ix3 b k (colV cc)))
    (fun g cc => A2 (ix2 g cc)) f

/-- What the output array ends holding: at `(b, r, f)`, entry `f` of the output row of token `(b, r)`. -/
def G1 (c : Dev nD) : S2x2048x1024.Idx → Elt Ideal .f32 := fun i =>
  rowOf (V c main_v5) (V c main_v2) (i 0) (i 1) (i 2)

/-- `G1` at an index whose coordinates are `(b, r, f)`. -/
theorem G1_apply (c : Dev nD) (i : S2x2048x1024.Idx) (b : Fin 2) (r : Fin 2048) (f : Fin 1024)
    (h0 : (i 0).val = b.val) (h1 : (i 1).val = r.val) (h2 : (i 2).val = f.val) :
    G1 V c i = rowOf (V c main_v5) (V c main_v2) b r f := by
  have e0 : i 0 = b := Fin.ext h0
  have e1 : i 1 = r := Fin.ext h1
  have e2 : i 2 = f := Fin.ext h2
  unfold G1
  rw [e0, e1, e2]

/-- The stored block of blocks that are the query rows of a tile of batch `b`, the batch's key and value rows and
    the weights: row `p` of the block is the output row of the token that query row `p` is. -/
theorem stored_rowOf (x0 : Vec Ideal S1x512x1024 .bf16) (x1 x2 : Vec Ideal S1x2048x1024 .bf16) (x3 : Vec Ideal S1024x1024 .bf16)
    (A5 : S2x2048x3072.Idx → Elt Ideal .bf16) (A2 : S1024x1024.Idx → Elt Ideal .bf16) (b : Fin 2) (r : Fin 2048)
    (p : Fin 512) (f : Fin 1024)
    (h0 : ∀ cc : Fin 1024, x0 (ix3 (0 : Fin 1) p cc) = A5 (ix3 b r (colQ cc)))
    (h1 : ∀ (k : Fin 2048) (cc : Fin 1024), x1 (ix3 (0 : Fin 1) k cc) = A5 (ix3 b k (colK cc)))
    (h2 : ∀ (k : Fin 2048) (cc : Fin 1024), x2 (ix3 (0 : Fin 1) k cc) = A5 (ix3 b k (colV cc)))
    (h3 : ∀ (g cc : Fin 1024), x3 (ix2 g cc) = A2 (ix2 g cc)) :
    stored1 (F := Ideal) x0 x1 x2 x3 (ix3 (0 : Fin 1) p f) = rowOf A5 A2 b r f := by
  rw [Cert.BodyValue.stored_apply]
  unfold rowOf
  rw [show (fun cc => x0 (ix3 (0 : Fin 1) p cc)) = fun cc => A5 (ix3 b r (colQ cc)) from funext h0,
    show (fun k cc => x1 (ix3 (0 : Fin 1) k cc)) = fun k cc => A5 (ix3 b k (colK cc)) from funext fun k => funext (h1 k),
    show (fun k cc => x2 (ix3 (0 : Fin 1) k cc)) = fun k cc => A5 (ix3 b k (colV cc)) from funext fun k => funext (h2 k),
    show (fun g cc => x3 (ix2 g cc)) = fun g cc => A2 (ix2 g cc) from funext fun g => funext (h3 g)]

/-- WHAT POINT `t` WRITES BACK is block `t` of `G1`. -/
theorem flushed_eq (c : Dev nD) (t : Fin cfg1.N) :
    (dat1 (F := Ideal) V c).flushed 4 t = ((cfg1.win 4).blk t).view.read (Elt Ideal) (G1 V c) := by
  show (cfg1.win 4).cut (grid1.coords t) ((dat1 V c).after 4 t) = _
  rw [after1_4]
  unfold out1_4
  rw [View.canon_unit_zero hz3]
  simp only [View.ld_unit_zero (S := S1x512x1024) hz3, View.ld_unit_zero (S := S1x2048x1024) hz3, View.ld_unit_zero (S := S1024x1024) hz2]
  obtain ⟨e00, e01, e02, e10, e11, e12, e20, e21, e22, e30, e31, l0, l1, e42⟩ := idx_facts t
  refine funext fun (j : S1x512x1024.Idx) => ?_
  obtain ⟨u, p, f, rfl⟩ : ∃ (u : Fin 1) (p : Fin 512) (f : Fin 1024), j = ix3 u p f := ⟨j 0, j 1, j 2, eq_ix3 j⟩
  obtain rfl : u = 0 := Subsingleton.elim _ _
  rw [View.read_apply]
  show stored1 (F := Ideal) (iblk1 V c 0 t) (iblk1 V c 1 t) (iblk1 V c 2 t) (iblk1 V c 3 t) (ix3 (0 : Fin 1) p f)
      = G1 V c (((cfg1.win 4).blk t).view.emb (ix3 (0 : Fin 1) p f))
  have hb : win1_4.index t (0 : Fin 3) < 2 := by omega
  have hr : win1_4.index t (1 : Fin 3) * 512 + p.val < 2048 := by have := p.isLt; omega
  refine (stored_rowOf _ _ _ _ (V c main_v5) (V c main_v2) ⟨win1_4.index t (0 : Fin 3), hb⟩
    ⟨win1_4.index t (1 : Fin 3) * 512 + p.val, hr⟩ p f ?_ ?_ ?_ ?_).trans ?_
  · intro cc
    exact iblk0_apply V c t _ _
      (by show win1_4.index t (0 : Fin 3) = win1_0.index t (0 : Fin 3) * 1 + 0; omega)
      (by show win1_4.index t (1 : Fin 3) * 512 + p.val = win1_0.index t (1 : Fin 3) * 512 + p.val; omega)
      (by show cc.val = win1_0.index t (2 : Fin 3) * 1024 + cc.val; omega)
  · intro k cc
    exact iblk1_apply V c t _ _
      (by show win1_4.index t (0 : Fin 3) = win1_1.index t (0 : Fin 3) * 1 + 0; omega)
      (by show k.val = win1_1.index t (1 : Fin 3) * 2048 + k.val; omega)
      (by show 1024 + cc.val = win1_1.index t (2 : Fin 3) * 1024 + cc.val; omega)
  · intro k cc
    exact iblk2_apply V c t _ _
      (by show win1_4.index t (0 : Fin 3) = win1_2.index t (0 : Fin 3) * 1 + 0; omega)
      (by show k.val = win1_2.index t (1 : Fin 3) * 2048 + k.val; omega)
      (by show 2048 + cc.val = win1_2.index t (2 : Fin 3) * 1024 + cc.val; omega)
  · intro g cc
    exact iblk3_apply V c t _ _
      (by show g.val = win1_3.index t (0 : Fin 2) * 1024 + g.val; omega)
      (by show cc.val = win1_3.index t (1 : Fin 2) * 1024 + cc.val; omega)
  · refine (G1_apply V c _ _ _ _ ?_ ?_ ?_).symm
    · show win1_4.index t (0 : Fin 3) * 1 + 1 * 0 = win1_4.index t (0 : Fin 3); omega
    · show win1_4.index t (1 : Fin 3) * 512 + 1 * p.val = win1_4.index t (1 : Fin 3) * 512 + p.val; omega
    · show win1_4.index t (2 : Fin 3) * 1024 + 1 * f.val = f.val; omega

/-- An index of the output array is in point `t`'s block iff each coordinate is in the block's range on its axis. -/
theorem mem_blk (t : Fin cfg1.N) (i : S2x2048x1024.Idx) :
    i ∈ ((cfg1.win 4).blk t).view.set ↔ ∀ a : Fin 3, win1_4.index t a * S1x512x1024.size a ≤ (i a).val
      ∧ (i a).val < win1_4.index t a * S1x512x1024.size a + S1x512x1024.size a := by
  show i ∈ ((View.whole main_v6).slice (win1_4.rect t)).set ↔ _
  rw [View.set_slice_whole, Rect.mem_set_unit]
  exact Iff.rfl

/-- Every index of the output array is in some point's block: batch `b`, token `r` is in the block of the point with
    batch index `b` and tile index `r / 512`. -/
theorem cover (i : S2x2048x1024.Idx) :
    ∃ t : Fin cfg1.N, (cfg1.win 4).flush t = true ∧ i ∈ ((cfg1.win 4).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_4.index t (0 : Fin 3) = (i 0).val := congrFun ht 0
  have q1 : win1_4.index t (1 : Fin 3) = (i 1).val / 512 := congrFun ht 1
  have q2 : win1_4.index t (2 : Fin 3) = 0 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 1024 ≤ (i 2).val ∧ (i 2).val < win1_4.index t (2 : Fin 3) * 1024 + 1024; omega

/-- THE OUTPUT ARRAY after the whole pipeline is `G1`. -/
theorem final (c : Dev nD) : (dat1 (F := Ideal) V c).arrAt 4 cfg1.N = G1 V c :=
  (dat1 (F := Ideal) V c).arrAt_eq_of_cover 4 (G1 V c) (fun t _ => flushed_eq V c t) cover

/-- The output array after the whole pipeline, at `(b, t, f)`: entry `f` of the specification's output row of token
    `(b, t)`, over the projection array and the weight array as the region finds them. -/
theorem arr1 (c : Dev nD) (b : Fin 2) (t : Fin 2048) (f : Fin 1024) :
    ((dat1 (F := Ideal) V c).arrAt 4 cfg1.N : S2x2048x1024.Idx → Elt Ideal .f32) (ix3 b t f)
      = row (fun cc => (V c main_v5 : S2x2048x3072.Idx → Elt Ideal .bf16) (ix3 b t (colQ cc)))
          (fun k cc => (V c main_v5 : S2x2048x3072.Idx → Elt Ideal .bf16) (ix3 b k (colK cc)))
          (fun k cc => (V c main_v5 : S2x2048x3072.Idx → Elt Ideal .bf16) (ix3 b k (colV cc)))
          (fun g cc => (V c main_v2 : S1024x1024.Idx → Elt Ideal .bf16) (ix2 g cc)) f := by
  rw [final]
  rfl

end Cert.ArrI1
end
-- ==== Proof.ValueI.lean ====
/-
  The kernel program's result array, entry by entry, is the shared specification of the launch's three arguments.
  Between the launch and the attention kernel the buffers are followed one stretch at a time: the first host stretch
  leaves the arguments' values (a change of format is the identity on extended reals) with the activations regrouped
  into 4096 rows; the projection kernel leaves the product of the regrouped activations with the transposed weights;
  the second host stretch regroups that product back into [2, 2048, 3072] and touches nothing else. So the attention
  kernel is entered with the projection of the arguments and with the output weights, and what it leaves is the
  attention row of that projection times the output weights: the specification.
-/
import proofs.«143165_j48859547959308_2_alg».proof.Proof.FrameIRun
import proofs.«143165_j48859547959308_2_alg».proof.Proof.ArrI0
import proofs.«143165_j48859547959308_2_alg».proof.Proof.HostI
import proofs.«143165_j48859547959308_2_alg».proof.Proof.Spec
import proofs.«143165_j48859547959308_2_alg».proof.Proof.ArrI1

noncomputable section

namespace Cert.ValueI

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ) (ρ : Dev nD → PrngReg) (c : Dev nD)

/-- (a) The attention kernel is entered with the projection of the arguments: entry `(b, t, g)` of its first array is
    the token's features against row `g` of the weights. -/
theorem proj_at (a5 : S2x2048x3072.Idx → EReal) (x : S2x2048x1024.Idx → EReal) (wa : S3072x1024.Idx → EReal)
    (h5 : a5 = V3 (F := Ideal) m ρ c main_v5) (hx : x = m ((c.tc : Thread nD τ).loc main_arg0))
    (hwa : wa = m ((c.tc : Thread nD τ).loc main_arg1)) :
    ∀ (b : Fin 2) (t : Fin 2048) (g : Fin 3072), a5 (ix3 b t g) = Cert.Attn.proj x wa b t g := by
  intro b t g
  obtain ⟨y4, hy4⟩ : ∃ y4 : S4096x3072.Idx → EReal, y4 = W2 (F := Ideal) m ρ c main_v4 := ⟨_, rfl⟩
  obtain ⟨a3, ha3⟩ : ∃ a3 : S4096x1024.Idx → EReal, a3 = V1 (F := Ideal) m ρ c main_v3 := ⟨_, rfl⟩
  obtain ⟨a1, ha1⟩ : ∃ a1 : S3072x1024.Idx → EReal, a1 = V1 (F := Ideal) m ρ c main_v1 := ⟨_, rfl⟩
  rw [Cert.HostI.host1_v5 (W2 m ρ c) a5 y4 h5 hy4 b t g]
  rw [Cert.ArrI0.arr0 (V1 m ρ) c _ g y4 a3 a1 (hy4.trans (W2_arr m ρ c 2)) ha3 ha1]
  unfold Cert.Attn.proj
  refine Finset.sum_congr rfl fun k _ => ?_
  rw [Cert.HostI.host0_v3 (W0 m ρ c) a3 x ha3 hx b t k, Cert.HostI.host0_v1 (W0 m ρ c) a1 wa ha1 hwa (ix2 g k)]

/-- (b) The attention kernel is entered with the output weights as launched. -/
theorem wout_at (a2 wo : S1024x1024.Idx → EReal) (h2 : a2 = V3 (F := Ideal) m ρ c main_v2)
    (hwo : wo = m ((c.tc : Thread nD τ).loc main_arg2)) : ∀ i : S1024x1024.Idx, a2 i = wo i := by
  have e : a2 = StableHlo.after (hostOps0 (F := Ideal)) (W0 m ρ c) main_v2 :=
    h2.trans ((W3_of m ρ c main_v2 (by decide)).trans (W2_of_ne m ρ c main_v2 (by decide)))
  exact Cert.HostI.host0_v2 (W0 m ρ c) a2 wo e hwo

/-- The attention row of the entry contents is the specification of the arguments. -/
theorem out_of_row (o x : S2x2048x1024.Idx → EReal) (wa : S3072x1024.Idx → EReal) (wo : S1024x1024.Idx → EReal)
    (a5 : S2x2048x3072.Idx → EReal) (a2 : S1024x1024.Idx → EReal)
    (h5 : a5 = V3 (F := Ideal) m ρ c main_v5) (h2 : a2 = V3 (F := Ideal) m ρ c main_v2)
    (hx : x = m ((c.tc : Thread nD τ).loc main_arg0)) (hwa : wa = m ((c.tc : Thread nD τ).loc main_arg1))
    (hwo : wo = m ((c.tc : Thread nD τ).loc main_arg2)) (b : Fin 2) (t : Fin 2048) (f : Fin 1024)
    (hrow : o (ix3 b t f) = Cert.Attn.row (fun cc => a5 (ix3 b t (Cert.Attn.colQ cc)))
      (fun k cc => a5 (ix3 b k (Cert.Attn.colK cc))) (fun k cc => a5 (ix3 b k (Cert.Attn.colV cc)))
      (fun g cc => a2 (ix2 g cc)) f) :
    o (ix3 b t f) = Cert.Attn.out x wa wo b t f := by
  rw [hrow]
  unfold Cert.Attn.out
  have eq : (fun cc => a5 (ix3 b t (Cert.Attn.colQ cc))) = fun cc => Cert.Attn.proj x wa b t (Cert.Attn.colQ cc) :=
    funext fun cc => proj_at m ρ c a5 x wa h5 hx hwa b t (Cert.Attn.colQ cc)
  have ek : (fun k cc => a5 (ix3 b k (Cert.Attn.colK cc))) = fun k cc => Cert.Attn.proj x wa b k (Cert.Attn.colK cc) :=
    funext fun k => funext fun cc => proj_at m ρ c a5 x wa h5 hx hwa b k (Cert.Attn.colK cc)
  have ev : (fun k cc => a5 (ix3 b k (Cert.Attn.colV cc))) = fun k cc => Cert.Attn.proj x wa b k (Cert.Attn.colV cc) :=
    funext fun k => funext fun cc => proj_at m ρ c a5 x wa h5 hx hwa b k (Cert.Attn.colV cc)
  have ew : (fun g cc => a2 (ix2 g cc)) = fun (g : Fin 1024) (cc : Fin 1024) => wo (ix2 g cc) :=
    funext fun g => funext fun cc => wout_at m ρ c a2 wo h2 hwo (ix2 g cc)
  rw [eq, ek, ev, ew]

/-- (c) The result array is the specification of the arguments, given the attention kernel's output array as the
    attention row of its entry contents. -/
theorem res_eq_of
    (harr1 : ∀ (b : Fin 2) (t : Fin 2048) (f : Fin 1024),
      ((dat1 (F := Ideal) (V3 m ρ) c).arrAt 4 cfg1.N : S2x2048x1024.Idx → Elt Ideal .f32) (ix3 b t f)
        = Cert.Attn.row (fun cc => (V3 (F := Ideal) m ρ c main_v5) (ix3 b t (Cert.Attn.colQ cc)))
            (fun k cc => (V3 (F := Ideal) m ρ c main_v5) (ix3 b k (Cert.Attn.colK cc)))
            (fun k cc => (V3 (F := Ideal) m ρ c main_v5) (ix3 b k (Cert.Attn.colV cc)))
            (fun g cc => (V3 (F := Ideal) m ρ c main_v2) (ix2 g cc)) f)
    (o x : S2x2048x1024.Idx → EReal) (wa : S3072x1024.Idx → EReal) (wo : S1024x1024.Idx → EReal)
    (ho : o = res1 (F := Ideal) m ρ c) (hx : x = m ((c.tc : Thread nD τ).loc main_arg0))
    (hwa : wa = m ((c.tc : Thread nD τ).loc main_arg1)) (hwo : wo = m ((c.tc : Thread nD τ).loc main_arg2))
    (b : Fin 2) (t : Fin 2048) (f : Fin 1024) : o (ix3 b t f) = Cert.Attn.out x wa wo b t f := by
  subst ho
  exact out_of_row m ρ c _ x wa wo (V3 (F := Ideal) m ρ c main_v5) (V3 (F := Ideal) m ρ c main_v2) rfl rfl hx hwa hwo b t f
    (harr1 b t f)

/-- (c) THE RESULT: the kernel program's result array, entry by entry, is the specification of the launch's arguments. -/
theorem res_eq (o x : S2x2048x1024.Idx → EReal) (wa : S3072x1024.Idx → EReal) (wo : S1024x1024.Idx → EReal)
    (ho : o = res1 (F := Ideal) m ρ c) (hx : x = m ((c.tc : Thread nD τ).loc main_arg0))
    (hwa : wa = m ((c.tc : Thread nD τ).loc main_arg1)) (hwo : wo = m ((c.tc : Thread nD τ).loc main_arg2))
    (b : Fin 2) (t : Fin 2048) (f : Fin 1024) : o (ix3 b t f) = Cert.Attn.out x wa wo b t f :=
  res_eq_of m ρ c (fun b t f => Cert.ArrI1.arr1 (V3 (F := Ideal) m ρ) c b t f) o x wa wo ho hx hwa hwo b t f

end Cert.ValueI

end
-- ==== Proof.RefIsSpec.lean ====
/-
  The reference program, read at an index, is the shared specification: multi-head attention followed by a linear
  layer. The stages are read one at a time at coordinates. The three thirds of the projection, split into heads,
  are the query, key and value entries at column 64 h + d; the batched product of queries and keys, scaled by 1/8,
  is the score; the maximum over the key axis, folded from -∞, is the largest score; the exponential of the shifted
  score divided by the sum over keys is the softmax weight; the batched product with the values, heads merged back
  into columns c = 64 (c / 64) + c % 64, is the mixed row; the last product is the row times the output weights.
  Both sides are the same formula over the extended reals, so no finiteness of the inputs is used.
-/
import proofs.«143165_j48859547959308_2_alg».proof.Proof.Gen.ReferenceIdeal.Read
import proofs.«143165_j48859547959308_2_alg».proof.Proof.Spec
import proofs.«143165_j48859547959308_2_alg».proof.Proof.LibAxisReduce

noncomputable section

namespace Cert.RefIsSpec

open Idealize.ShloMosaic Idealize.ShloMosaic.ValueIdx Cert.ReferenceIdeal Cert.ReferenceIdeal.Gen Cert.ReferenceIdeal.Read Cert.Attn

variable (x : (⟨S2x2048x1024, .f32⟩ : BufTy).Contents (Elt Ideal)) (wa : (⟨S3072x1024, .f32⟩ : BufTy).Contents (Elt Ideal))
  (wo : (⟨S1024x1024, .f32⟩ : BufTy).Contents (Elt Ideal))

/-! ## The projection and its three thirds -/

/-- The projection at `(b, t, f)`: the token's features against row `f` of the weights. -/
theorem v0_at (b : Fin 2) (t : Fin 2048) (f : Fin 3072) :
    val_main_v0 (F := Ideal) x wa (ix3 b t f) = proj x wa b t f := by
  rw [val_main_v0_apply]
  refine Finset.sum_congr rfl fun k _ => ?_
  have el : lidx_main_v0 (ix3 b t f) k = ix3 b t k :=
    funext fun a => by match a with | ⟨0, _⟩ => rfl | ⟨1, _⟩ => rfl | ⟨2, _⟩ => rfl
  have er : ridx_main_v0 (ix3 b t f) k = ix2 f k :=
    funext fun a => by match a with | ⟨0, _⟩ => rfl | ⟨1, _⟩ => rfl
  rw [el, er]

/-- The query third at `(b, t, c)`. -/
theorem v1_at (b : Fin 2) (t : Fin 2048) (c : Fin 1024) :
    val_main_v1 (F := Ideal) x wa (ix3 b t c) = proj x wa b t (colQ c) := by
  rw [val_main_v1_apply, ← v0_at]
  exact congrArg _ (funext fun a => by match a with | ⟨0, _⟩ => rfl | ⟨1, _⟩ => rfl | ⟨2, _⟩ => rfl)

/-- The key third at `(b, t, c)`. -/
theorem v2_at (b : Fin 2) (t : Fin 2048) (c : Fin 1024) :
    val_main_v2 (F := Ideal) x wa (ix3 b t c) = proj x wa b t (colK c) := by
  rw [val_main_v2_apply, ← v0_at]
  exact congrArg _ (funext fun a => by match a with | ⟨0, _⟩ => rfl | ⟨1, _⟩ => rfl | ⟨2, _⟩ => rfl)

/-- The value third at `(b, t, c)`. -/
theorem v3_at (b : Fin 2) (t : Fin 2048) (c : Fin 1024) :
    val_main_v3 (F := Ideal) x wa (ix3 b t c) = proj x wa b t (colV c) := by
  rw [val_main_v3_apply, ← v0_at]
  exact congrArg _ (funext fun a => by match a with | ⟨0, _⟩ => rfl | ⟨1, _⟩ => rfl | ⟨2, _⟩ => rfl)

/-! ## Heads: column `64 h + d` of a third is lane `d` of head `h` -/

/-- Row-major position `((b · 2048 + t) · 16 + h) · 64 + d` of the split array is position `(b, t, 64 h + d)`. -/
theorem split_idx (b : Fin 2) (t : Fin 2048) (h : Fin 16) (d : Fin 64) :
    idx_main_v4 (ix4 b t h d) = ix3 b t (hd h d) := by
  funext a; apply Fin.ext
  match a with
  | ⟨0, _⟩ => show (((b.val * 2048 + t.val) * 16 + h.val) * 64 + d.val) / 2097152 = b.val; omega
  | ⟨1, _⟩ => show (((b.val * 2048 + t.val) * 16 + h.val) * 64 + d.val) / 1024 % 2048 = t.val; omega
  | ⟨2, _⟩ => show (((b.val * 2048 + t.val) * 16 + h.val) * 64 + d.val) % 1024 = h.val * 64 + d.val; omega

/-- Exchanging the token axis and the head axis. -/
theorem swap_idx (b : Fin 2) (h : Fin 16) (t : Fin 2048) (d : Fin 64) :
    idx_main_v5 (ix4 b h t d) = ix4 b t h d :=
  funext fun a => by match a with | ⟨0, _⟩ => rfl | ⟨1, _⟩ => rfl | ⟨2, _⟩ => rfl | ⟨3, _⟩ => rfl

/-- The query entry of head `h`, token `t`, lane `d`. -/
theorem q_at (b : Fin 2) (h : Fin 16) (t : Fin 2048) (d : Fin 64) :
    val_main_v5 (F := Ideal) x wa (ix4 b h t d) = proj x wa b t (colQ (hd h d)) := by
  rw [val_main_v5_apply, swap_idx, val_main_v4_apply, split_idx, v1_at]

/-- The key entry of head `h`, token `t`, lane `d`. -/
theorem k_at (b : Fin 2) (h : Fin 16) (t : Fin 2048) (d : Fin 64) :
    val_main_v7 (F := Ideal) x wa (ix4 b h t d) = proj x wa b t (colK (hd h d)) := by
  rw [val_main_v7_apply, show idx_main_v7 (ix4 b h t d) = ix4 b t h d from swap_idx b h t d, val_main_v6_apply,
    show idx_main_v6 (ix4 b t h d) = ix3 b t (hd h d) from split_idx b t h d, v2_at]

/-- The value entry of head `h`, token `t`, lane `d`. -/
theorem v_at (b : Fin 2) (h : Fin 16) (t : Fin 2048) (d : Fin 64) :
    val_main_v9 (F := Ideal) x wa (ix4 b h t d) = proj x wa b t (colV (hd h d)) := by
  rw [val_main_v9_apply, show idx_main_v9 (ix4 b h t d) = ix4 b t h d from swap_idx b h t d, val_main_v8_apply,
    show idx_main_v8 (ix4 b t h d) = ix3 b t (hd h d) from split_idx b t h d, v3_at]

/-! ## Scores and their maximum -/

/-- The query row of token `(b, t)`. -/
abbrev qrow (b : Fin 2) (t : Fin 2048) : Fin 1024 → EReal := fun c => proj x wa b t (colQ c)
/-- The key rows of batch `b`. -/
abbrev krows (b : Fin 2) : Fin 2048 → Fin 1024 → EReal := fun k c => proj x wa b k (colK c)
/-- The value rows of batch `b`. -/
abbrev vrows (b : Fin 2) : Fin 2048 → Fin 1024 → EReal := fun k c => proj x wa b k (colV c)

/-- The scaled score of query `t` against key `k` in head `h`. -/
theorem s_at (b : Fin 2) (h : Fin 16) (t k : Fin 2048) :
    val_main_v12 (F := Ideal) x wa (ix4 b h t k) = score (qrow x wa b t) (krows x wa b) h k := by
  rw [val_main_v12_apply, Ideal.mulf_def, val_main_v10_apply, val_main_v11_apply, val_main_cst_apply, Ideal.ofBits_def]
  unfold score
  refine congrArg (· * _) (Finset.sum_congr rfl fun d _ => ?_)
  have el : lidx_main_v10 (ix4 b h t k) d = ix4 b h t d :=
    funext fun a => by match a with | ⟨0, _⟩ => rfl | ⟨1, _⟩ => rfl | ⟨2, _⟩ => rfl | ⟨3, _⟩ => rfl
  have er : ridx_main_v10 (ix4 b h t k) d = ix4 b h k d :=
    funext fun a => by match a with | ⟨0, _⟩ => rfl | ⟨1, _⟩ => rfl | ⟨2, _⟩ => rfl | ⟨3, _⟩ => rfl
  rw [el, er, q_at, k_at]

/-- Reducing the last axis of a rank-4 array: the reduced index `(b, h, t)` with `k` put back is `(b, h, t, k)`. -/
theorem lift_last4 (hr : S2x16x2048x2048.Reduces [3] S2x16x2048) (b : Fin 2) (h : Fin 16) (t : Fin 2048)
    (k : Fin (S2x16x2048x2048.size 3)) : hr.lift (ix3 b h t) k = ix4 b h t (⟨k.val, k.isLt⟩ : Fin 2048) := by
  funext c; apply Fin.ext
  fin_cases c <;> rfl

/-- The maximum over the key axis, folded from -∞, is the largest score. -/
theorem m_at (b : Fin 2) (h : Fin 16) (t : Fin 2048) :
    val_main_v13 (F := Ideal) x wa (ix3 b h t) = top (qrow x wa b t) (krows x wa b) h := by
  unfold val_main_v13
  have hr : S2x16x2048x2048.Reduces [3] S2x16x2048 := by decide
  rw [Host.reduce_eq_fold_single FloatOps.maximumf _ _ _ hr]
  have e : (val_main_v12 (F := Ideal) x wa ∘ hr.lift (ix3 b h t))
      = fun k : Fin 2048 => score (qrow x wa b t) (krows x wa b) h k :=
    funext fun k => by
      show val_main_v12 (F := Ideal) x wa (hr.lift (ix3 b h t) k) = _
      rw [lift_last4, s_at]
      rfl
  rw [e, val_main_cst_0_apply, Ideal.ofBits_def, Cert.LibAxisReduce.ofBits_neg_inf]
  rfl

/-- Taking the maximum with -∞ once more changes nothing. -/
theorem m15_at (b : Fin 2) (h : Fin 16) (t : Fin 2048) :
    val_main_v15 (F := Ideal) x wa (ix3 b h t) = top (qrow x wa b t) (krows x wa b) h := by
  rw [val_main_v15_apply, Ideal.maximumf_def, val_main_v14_apply, val_main_cst_1_apply, Ideal.ofBits_def,
    Cert.LibAxisReduce.ofBits_neg_inf, m_at]
  exact max_bot_left _

/-- The largest score, spread back over the key axis. -/
theorem m17_at (b : Fin 2) (h : Fin 16) (t k : Fin 2048) :
    val_main_v17 (F := Ideal) x wa (ix4 b h t k) = top (qrow x wa b t) (krows x wa b) h := by
  rw [val_main_v17_apply, val_main_v16_apply,
    show idx_main_v16 (idx_main_v17 (ix4 b h t k)) = ix3 b h t from
      funext fun a => by match a with | ⟨0, _⟩ => rfl | ⟨1, _⟩ => rfl | ⟨2, _⟩ => rfl]
  exact m15_at x wa b h t

/-! ## The softmax weights -/

/-- The shifted exponential of a score. -/
theorem e_at (b : Fin 2) (h : Fin 16) (t k : Fin 2048) :
    val_main_v19 (F := Ideal) x wa (ix4 b h t k) = expo (qrow x wa b t) (krows x wa b) h k := by
  rw [val_main_v19_apply, Ideal.hostUnary_exp_def, val_main_v18_apply, Ideal.subf_def, s_at, m17_at]
  rfl

/-- The sum of the shifted exponentials over the key axis; the initial value is zero. -/
theorem z_at (b : Fin 2) (h : Fin 16) (t : Fin 2048) :
    val_main_v20 (F := Ideal) x wa (ix3 b h t) = ∑ k : Fin 2048, expo (qrow x wa b t) (krows x wa b) h k := by
  rw [val_main_v20_apply, val_main_cst_2_apply, Ideal.ofBits_def, Ideal.ofBits_zero_f32, zero_add]
  refine Finset.sum_congr rfl fun k _ => ?_
  rw [show idx_main_v20 (ix3 b h t) k = ix4 b h t k from
    funext fun a => by match a with | ⟨0, _⟩ => rfl | ⟨1, _⟩ => rfl | ⟨2, _⟩ => rfl | ⟨3, _⟩ => rfl, e_at]

/-- The sum, spread back over the key axis. -/
theorem z22_at (b : Fin 2) (h : Fin 16) (t k : Fin 2048) :
    val_main_v22 (F := Ideal) x wa (ix4 b h t k) = ∑ k' : Fin 2048, expo (qrow x wa b t) (krows x wa b) h k' := by
  rw [val_main_v22_apply, val_main_v21_apply,
    show idx_main_v21 (idx_main_v22 (ix4 b h t k)) = ix3 b h t from
      funext fun a => by match a with | ⟨0, _⟩ => rfl | ⟨1, _⟩ => rfl | ⟨2, _⟩ => rfl]
  exact z_at x wa b h t

/-- The softmax weight of key `k` for query `t` in head `h`. -/
theorem w_at (b : Fin 2) (h : Fin 16) (t k : Fin 2048) :
    val_main_v23 (F := Ideal) x wa (ix4 b h t k) = weight (qrow x wa b t) (krows x wa b) h k := by
  rw [val_main_v23_apply, Ideal.hostDivf_def, e_at, z22_at]
  rfl

/-! ## The mixed row and the output -/

/-- Lane `d` of head `h` of the mixed row: the value rows weighted by the softmax of head `h`. -/
theorem mix_at (b : Fin 2) (h : Fin 16) (t : Fin 2048) (d : Fin 64) :
    val_main_v24 (F := Ideal) x wa (ix4 b h t d)
      = ∑ k : Fin 2048, weight (qrow x wa b t) (krows x wa b) h k * vrows x wa b k (hd h d) := by
  rw [val_main_v24_apply]
  refine Finset.sum_congr rfl fun k _ => ?_
  have el : lidx_main_v24 (ix4 b h t d) k = ix4 b h t k :=
    funext fun a => by match a with | ⟨0, _⟩ => rfl | ⟨1, _⟩ => rfl | ⟨2, _⟩ => rfl | ⟨3, _⟩ => rfl
  have er : ridx_main_v24 (ix4 b h t d) k = ix4 b h k d :=
    funext fun a => by match a with | ⟨0, _⟩ => rfl | ⟨1, _⟩ => rfl | ⟨2, _⟩ => rfl | ⟨3, _⟩ => rfl
  rw [el, er, w_at, v_at]

/-- The lane of a column inside its head. -/
def laneOf (c : Fin 1024) : Fin 64 := ⟨c.val % 64, Nat.mod_lt _ (by decide)⟩

/-- A column is lane `c % 64` of head `c / 64`. -/
theorem hd_headOf_laneOf (c : Fin 1024) : hd (headOf c) (laneOf c) = c := by
  apply Fin.ext; show c.val / 64 * 64 + c.val % 64 = c.val; omega

/-- Row-major position `(b · 2048 + t) · 1024 + c` of the merged array is position `(b, t, c / 64, c % 64)`. -/
theorem merge_idx (b : Fin 2) (t : Fin 2048) (c : Fin 1024) :
    idx_main_v26 (ix3 b t c) = ix4 b t (headOf c) (laneOf c) := by
  funext a; apply Fin.ext
  match a with
  | ⟨0, _⟩ => show ((b.val * 2048 + t.val) * 1024 + c.val) / 2097152 = b.val; omega
  | ⟨1, _⟩ => show ((b.val * 2048 + t.val) * 1024 + c.val) / 1024 % 2048 = t.val; omega
  | ⟨2, _⟩ => show ((b.val * 2048 + t.val) * 1024 + c.val) / 64 % 16 = c.val / 64; omega
  | ⟨3, _⟩ => show ((b.val * 2048 + t.val) * 1024 + c.val) % 64 = c.val % 64; omega

/-- Column `c` of the mixed row of token `(b, t)`. -/
theorem mixed_at (b : Fin 2) (t : Fin 2048) (c : Fin 1024) :
    val_main_v26 (F := Ideal) x wa (ix3 b t c) = mixed (qrow x wa b t) (krows x wa b) (vrows x wa b) c := by
  rw [val_main_v26_apply, merge_idx, val_main_v25_apply,
    show idx_main_v25 (ix4 b t (headOf c) (laneOf c)) = ix4 b (headOf c) t (laneOf c) from
      funext fun a => by match a with | ⟨0, _⟩ => rfl | ⟨1, _⟩ => rfl | ⟨2, _⟩ => rfl | ⟨3, _⟩ => rfl,
    mix_at, hd_headOf_laneOf]
  rfl

/-- The reference program at `(b, t, f)` is the specification at `(b, t, f)`. -/
theorem ref_eq (b : Fin 2) (t : Fin 2048) (f : Fin 1024) :
    Cert.ReferenceIdeal.Read.val_main_v27 (F := Ideal) x wa wo (ix3 b t f) = Cert.Attn.out x wa wo b t f := by
  rw [val_main_v27_apply]
  unfold out row
  refine Finset.sum_congr rfl fun c _ => ?_
  have el : lidx_main_v27 (ix3 b t f) c = ix3 b t c :=
    funext fun a => by match a with | ⟨0, _⟩ => rfl | ⟨1, _⟩ => rfl | ⟨2, _⟩ => rfl
  have er : ridx_main_v27 (ix3 b t f) c = ix2 f c :=
    funext fun a => by match a with | ⟨0, _⟩ => rfl | ⟨1, _⟩ => rfl
  rw [el, er, mixed_at]

end Cert.RefIsSpec

end
-- ==== Proof.lean ====
/-
  The proof of the certificate's claim for a fused multi-head attention layer against its plain reference.

  The kernel program projects the activations onto query, key and value columns with one tiled matrix product
  (`a · bᵀ`, blocks of 512 rows by 1024 columns), and then, per batch and per tile of 512 queries, computes all sixteen
  heads' softmax-weighted mixtures of the value rows and multiplies the mixed rows by the output weights transposed. The
  reference does the same with whole-array operations. Over the extended reals a change of float format is the
  identity, so both sides are literally one function of the inputs (`Cert.Attn.out`): no algebraic law beyond
  reindexing the sums is needed, and the finiteness of the inputs is never used.

  * Frames. Each kernel's body is run once at a symbolic grid point (the attention body, after its purely
    computational parts are folded into one stored value, is five whole-buffer loads and one store); the two regions
    are chained with the host stretches between them. The attention kernel reads ONE array through three windows, so
    that array's full share is dealt among the three at the region's entry and gathered at its exit. The same text
    proves the frame of the word-level program and of the idealized one.
  * Values. The projection's output array is the product entry by entry; the attention kernel's output array is, row
    by row, `Cert.Attn.row` of the query row, the batch's key and value rows and the output weights; the reference's
    result is read operation by operation to the same function.
-/
import proofs.«143165_j48859547959308_2_alg».proof.Defs
import proofs.«143165_j48859547959308_2_alg».proof.Proof.Gen.Kernel
import proofs.«143165_j48859547959308_2_alg».proof.Proof.Gen.KernelIdeal
import proofs.«143165_j48859547959308_2_alg».proof.Proof.Gen.ReferenceIdeal
import proofs.«143165_j48859547959308_2_alg».proof.Proof.Gen.Pre_finite_inputs
import proofs.«143165_j48859547959308_2_alg».proof.Proof.Gen.ReferenceIdeal.Run
import proofs.«143165_j48859547959308_2_alg».proof.Proof.Gen.ReferenceIdeal.Read
import proofs.«143165_j48859547959308_2_alg».proof.Proof.FrameBRun
import proofs.«143165_j48859547959308_2_alg».proof.Proof.FrameIRun
import proofs.«143165_j48859547959308_2_alg».proof.Proof.ValueI
import proofs.«143165_j48859547959308_2_alg».proof.Proof.RefIsSpec
import Idealize.ShloMosaic.Adequacy
import Idealize.ShloMosaic.Init

noncomputable section

namespace Cert.Proof

open Idealize.ShloMosaic Idealize.ShloMosaic.ValueIdx Idealize.SL.Sem

/-- The word-level program runs to the end, faults nowhere and leaves its arguments as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does the idealized program. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the same result array: entry `(b, t, f)` is `Cert.Attn.out` of the three
    argument arrays on both sides. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.res1 (F := Ideal) m ρ c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2]
  funext i
  obtain ⟨b, t, f, rfl⟩ : ∃ (b : Fin 2) (t : Fin 2048) (f : Fin 1024), i = ix3 b t f := ⟨i 0, i 1, i 2, eq_ix3 i⟩
  exact (Cert.RefIsSpec.ref_eq _ _ _ b t f).trans (Cert.ValueI.res_eq m ρ c _ _ _ _ rfl rfl rfl rfl b t f).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
